-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1000 : Shape := ⟨2, ![32768, 1000]⟩
abbrev S_ : Shape := ⟨0, ![]⟩

class Facts : Prop where
  bcast_S_S32768x1000 : S_.BroadcastsInDim S32768x1000 (![] : Fin 0 → Fin S32768x1000.rank)
  reducesTo_S32768x1000_S_d0_1 : S32768x1000.ReducesTo [0, 1] S_
  h_S_ : 0 < S_.numel

variable [Facts]

def fn {F : FTy → Type} [FloatOps F] (main_arg0 : FVec F S32768x1000 .f32) (main_arg1 : IVec S32768x1000 32) : IVec S_ 1 :=
  let main_v0 : FVec F S32768x1000 .f32 := Host.absf main_arg0
  let main_cst : FVec F S_ .f32 := constant S_ .f32 0x7F800000#32
  let main_v1 : FVec F S32768x1000 .f32 := broadcastInDim S32768x1000 ![] bcast_S_S32768x1000 main_cst
  let main_v2 : IVec S32768x1000 1 := cmpf .olt main_v0 main_v1
  let main_c : IVec S_ 1 := constantI S_ 1 1#1
  let main_v3 : IVec S_ 1 := (fun x v => Host.reduce IntOp.andi x v reducesTo_S32768x1000_S_d0_1 h_S_) main_v2 main_c
  let main_c_0 : IVec S_ 32 := constantI S_ 32 0#32
  let main_v4 : IVec S32768x1000 32 := broadcastInDim S32768x1000 ![] bcast_S_S32768x1000 main_c_0
  let main_v5 : IVec S32768x1000 1 := cmpi .eq main_arg1 main_v4
  let main_c_1 : IVec S_ 32 := constantI S_ 32 1#32
  let main_v6 : IVec S32768x1000 32 := broadcastInDim S32768x1000 ![] bcast_S_S32768x1000 main_c_1
  let main_v7 : IVec S32768x1000 1 := cmpi .eq main_arg1 main_v6
  let main_v8 : IVec S32768x1000 1 := ori main_v5 main_v7
  let main_c_2 : IVec S_ 1 := constantI S_ 1 1#1
  let main_v9 : IVec S_ 1 := (fun x v => Host.reduce IntOp.andi x v reducesTo_S32768x1000_S_d0_1 h_S_) main_v8 main_c_2
  let main_v10 : IVec S_ 1 := andi main_v3 main_v9
  main_v10
-- ==== Kernel.lean ====
abbrev S32768x1000 : Shape := ⟨2, ![32768, 1000]⟩
abbrev S16x128 : Shape := ⟨2, ![16, 128]⟩
abbrev S1024x1000 : Shape := ⟨2, ![1024, 1000]⟩
abbrev S8x128 : Shape := ⟨2, ![8, 128]⟩
abbrev S1x1 : Shape := ⟨2, ![1, 1]⟩
abbrev S1024 : Shape := ⟨1, ![1024]⟩
abbrev S1024x1 : Shape := ⟨2, ![1024, 1]⟩
abbrev S1 : Shape := ⟨1, ![1]⟩
abbrev S_ : Shape := ⟨0, ![]⟩

abbrev nBuf : Space → Nat
  | .hbm => 34
  | .vmem => 13
  | .smem => 0
  | _ => 0

abbrev bufTy : (tb : Table) → Fin (tcTables nBuf tb) → BufTy
  | .hbm, ⟨0, _⟩ => ⟨S32768x1000, .f32⟩
  | .hbm, ⟨1, _⟩ => ⟨S32768x1000, .i32⟩
  | .hbm, ⟨2, _⟩ => ⟨S16x128, .f32⟩
  | .hbm, ⟨3, _⟩ => ⟨S16x128, .f32⟩
  | .hbm, ⟨4, _⟩ => ⟨S16x128, .f32⟩
  | .hbm, ⟨5, _⟩ => ⟨S1x1, .f32⟩
  | .hbm, ⟨6, _⟩ => ⟨S_, .f32⟩
  | .hbm, ⟨7, _⟩ => ⟨S1x1, .f32⟩
  | .hbm, ⟨8, _⟩ => ⟨S_, .f32⟩
  | .hbm, ⟨9, _⟩ => ⟨S_, .f32⟩
  | .hbm, ⟨10, _⟩ => ⟨S1x1, .f32⟩
  | .hbm, ⟨11, _⟩ => ⟨S_, .f32⟩
  | .hbm, ⟨12, _⟩ => ⟨S1x1, .f32⟩
  | .hbm, ⟨13, _⟩ => ⟨S_, .f32⟩
  | .hbm, ⟨14, _⟩ => ⟨S_, .f32⟩
  | .hbm, ⟨15, _⟩ => ⟨S1x1, .f32⟩
  | .hbm, ⟨16, _⟩ => ⟨S_, .f32⟩
  | .hbm, ⟨17, _⟩ => ⟨S1x1, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .local _ .vmem, ⟨0, _⟩ => ⟨S1024x1000, .f32⟩
  | .local _ .vmem, ⟨1, _⟩ => ⟨S1024x1000, .f32⟩
  | .local _ .vmem, ⟨2, _⟩ => ⟨S1024x1000, .i32⟩
  | .local _ .vmem, ⟨3, _⟩ => ⟨S1024x1000, .i32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | .local _ .vmem, ⟨8, _⟩ => ⟨S8x128, .f32⟩
  | .local _ .vmem, ⟨9, _⟩ => ⟨S8x128, .f32⟩
  | .local _ .vmem, ⟨10, _⟩ => ⟨S1x1, .f32⟩
  | .local _ .vmem, ⟨11, _⟩ => ⟨S1x1, .f32⟩
  | .local _ .vmem, ⟨12, _⟩ => ⟨S1x1, .f32⟩
  | _, _ => ⟨S32768x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v42 : BitVec 1 := Scalar.cmpi .eq arg1 c15_i32
  let v43 : BitVec 32 := Scalar.extui v42
  let c0_i32_24 : BitVec 32 := 0#32
  let v44 : BitVec 1 := Scalar.cmpi .ne v43 c0_i32_24
  v44

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1000 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x1000_S1024x1000_0_0 : ∀ a, (![0, 0] : Fin 2 → Nat) a + S1024x1000.size a ≤ S1024x1000.size a
  h_S1024x1000 : 0 < S1024x1000.numel
  reduces_S1024x1000_S1024 : S1024x1000.Reduces [1] S1024
  shapeCasts_S1024_S1024x1 : S1024.ShapeCasts S1024x1
  reduces_S1024x1_S1 : S1024x1.Reduces [0] S1
  shapeCasts_S1_S1x1 : S1.ShapeCasts S1x1
  inb_S8x128_S8x128_0_0 : ∀ a, (![0, 0] : Fin 2 → Nat) a + S8x128.size a ≤ S8x128.size a
  h_S8x128 : 0 < S8x128.numel
  inb_S8x128_S1x1_0_0 : ∀ a, (![0, 0] : Fin 2 → Nat) a + S1x1.size a ≤ S8x128.size a
  slices_S16x128_S1x1_0_0 : S16x128.Slices ![0, 0] S1x1
  shapeCasts_S1x1_S_ : S1x1.ShapeCasts S_
  slices_S16x128_S1x1_8_0 : S16x128.Slices ![8, 0] S1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1000.size a ≤ S32768x1000.size a
  hwx0_0 : ∀ i : grid0.Coords, EltTy.bits .f32 = 32 ∨ (Rect.block (s := S32768x1000) S1024x1000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1000.size a ≤ S32768x1000.size a
  hwx0_1 : ∀ i : grid0.Coords, EltTy.bits .i32 = 32 ∨ (Rect.block (s := S32768x1000) S1024x1000.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S16x128.size a
  hwx0_2 : ∀ i : grid0.Coords, EltTy.bits .f32 = 32 ∨ (Rect.block (s := S16x128) S8x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S16x128.size a
  hwx0_3 : ∀ i : grid0.Coords, EltTy.bits .f32 = 32 ∨ (Rect.block (s := S16x128) S8x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S16x128.size a
  hwx0_4 : ∀ i : grid0.Coords, EltTy.bits .f32 = 32 ∨ (Rect.block (s := S16x128) S8x128.size (cc0_transform_4 i) (hinb0_4 i)).WholeWords (EltTy.packing .f32)

variable [Facts₀]

abbrev win0_0 : Pipeline.Window sig grid0 :=
  Pipeline.Window.ofSpec (Memref.whole main_arg0) S1024x1000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S8x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S8x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun i => !(k0_cond2 i == 1#1) | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S32768x1000 : Shape := ⟨2, ![32768, 1000]⟩
abbrev S32768000 : Shape := ⟨1, ![32768000]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S32768x1000, .f32⟩
  | .hbm, ⟨1, _⟩ => ⟨S32768x1000, .i32⟩
  | .hbm, ⟨2, _⟩ => ⟨S32768000, .f32⟩
  | .hbm, ⟨3, _⟩ => ⟨S32768000, .i32⟩
  | .hbm, ⟨4, _⟩ => ⟨S32768000, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S32768000, .f32⟩
  | .hbm, ⟨17, _⟩ => ⟨S32768000, .i1⟩
  | .hbm, ⟨18, _⟩ => ⟨S32768000, .f32⟩
  | .hbm, ⟨19, _⟩ => ⟨S_, .f32⟩
  | .hbm, ⟨20, _⟩ => ⟨S_, .f32⟩
  | .hbm, ⟨21, _⟩ => ⟨S32768000, .f32⟩
  | .hbm, ⟨22, _⟩ => ⟨S32768000, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S32768000, .f32⟩
  | .hbm, ⟨27, _⟩ => ⟨S32768000, .i1⟩
  | .hbm, ⟨28, _⟩ => ⟨S32768000, .f32⟩
  | .hbm, ⟨29, _⟩ => ⟨S32768000, .f32⟩
  | .hbm, ⟨30, _⟩ => ⟨S_, .f32⟩
  | .hbm, ⟨31, _⟩ => ⟨S_, .f32⟩
  | .hbm, ⟨32, _⟩ => ⟨S32768000, .f32⟩
  | .hbm, ⟨33, _⟩ => ⟨S32768000, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | _, _ => ⟨S32768x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_cst_3 : Ref sig .tc := ⟨.hbm, 13, rfl⟩
abbrev main_v7 : Ref sig .tc := ⟨.hbm, 14, rfl⟩
abbrev main_cst_4 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_5 : Ref sig .tc := ⟨.hbm, 19, rfl⟩
abbrev main_call0_v0 : Ref sig .tc := ⟨.hbm, 20, rfl⟩
abbrev main_call0_v1 : Ref sig .tc := ⟨.hbm, 21, rfl⟩
abbrev main_v11 : Ref sig .tc := ⟨.hbm, 22, rfl⟩
abbrev main_cst_6 : Ref sig .tc := ⟨.hbm, 23, rfl⟩
abbrev main_v12 : Ref sig .tc := ⟨.hbm, 24, rfl⟩
abbrev main_cst_7 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_8 : Ref sig .tc := ⟨.hbm, 30, rfl⟩
abbrev main_call1_v0 : Ref sig .tc := ⟨.hbm, 31, rfl⟩
abbrev main_call1_v1 : Ref sig .tc := ⟨.hbm, 32, rfl⟩
abbrev main_v17 : Ref sig .tc := ⟨.hbm, 33, rfl⟩
abbrev main_cst_9 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_10 : Ref sig .tc := ⟨.hbm, 40, rfl⟩
abbrev main_v23 : Ref sig .tc := ⟨.hbm, 41, rfl⟩

abbrev nD : Nat := 1
abbrev τ : Topo := Topo.v7x

variable {F : FTy → Type} [FloatOps F]

class Facts₀ : Prop where
  shapeCasts_S32768x1000_S32768000 : S32768x1000.ShapeCasts S32768000
  reducesTo_S32768000_S_d0 : S32768000.ReducesTo [0] S_
  h_S_ : 0 < S_.numel
  bcast_S_S32768000 : S_.BroadcastsInDim S32768000 (![] : Fin 0 → Fin S32768000.rank)

variable [Facts₀]

class Facts : Prop extends Facts₀ where

variable [Facts]
-- ==== Proof.LossAlgebra.lean ====
/-
  The weighted masked log-loss on the extended reals, and why two ways of splitting the logarithms give one value.

  Over `n = 32768000` entries with a probability `x` and a binary label `t` each, let `s = ∑ t`, `A = ∑ [t = 1] log x`
  and `B = ∑ [t = 0] log (1 - x)`. The loss is `(-(n / (s + 1)) · A - (n / (n - s)) · B) / n` (`closing`).
  One program forms `B` entry by entry as `[t = 0] log1p (-x)` (`term0R`); the other takes ONE logarithm per entry,
  `ly = log (if t = 1 then x else 1 - x)`, and forms `ly - [t = 1] ly` (`term0K`). On a binary label the two agree
  whenever `ly` is a real number: at `t = 1` the difference `ly - ly` is `0`, at `t = 0` it is `ly - 0`. They differ only
  where `t = 1` and `log x = -∞` (`x ≤ 0`): there `-∞ - -∞ = -∞` on the extended reals, against `0`. But then `A = -∞` too,
  the weight `n / (s + 1)` is a positive real, so `-(n / (s + 1)) · A = +∞`, and `+∞ - w · B` is `+∞` for both values of `B`:
  the weight `w = n / (n - s)` is positive (a positive real, or `+∞` when every label is `1`), `w · -∞ = -∞`, and `w · B` of
  the other program is not `+∞` because `B` is never `+∞` for finite `x` and is `0` when every label is `1`.
-/
import Idealize.ShloMosaic.PureOps.Ideal
import Idealize.ShloMosaic.PureOps.Ideal.Laws
import Idealize.ShloMosaic.Lib.ValueIdx

noncomputable section

open scoped BigOperators

namespace Cert.LossAlgebra

open Idealize.ShloMosaic Idealize.ShloMosaic.ValueIdx

/-- A label word as an extended real: the integer it denotes, exactly. -/
def lab (w : BitVec 32) : EReal := ((w.toInt : ℝ) : EReal)

/-- The f32 word of `1.0` is the extended real `1`. -/
theorem ofBits_one_f32 : Ideal.ofBits .f32 0x3F800000#32 = 1 := by
  simp [Ideal.ofBits, Ideal.ieee]
  rw [← EReal.coe_mul, ← EReal.coe_one]
  congr 1
  norm_num

/-- A select on a decided proposition is the `if`. -/
theorem select_decide {α : Type} (p : Prop) [Decidable p] (a b : α) :
    Scalar.select (BitVec.ofBool (decide p)) a b = if p then a else b := by
  by_cases h : p
  · rw [if_pos h, decide_eq_true h]; exact select_one a b
  · rw [if_neg h, decide_eq_false h]; exact select_zero a b

/-- The number of entries, which is also the f32 value of `n + 1`. -/
def nTot : ℝ := 32768000

/-- The f32 word of `32768000`. -/
theorem ofBits_nTot : Ideal.ofBits .f32 0x4BFA0000#32 = (nTot : EReal) := by
  unfold nTot
  simp [Ideal.ofBits, Ideal.ieee]
  rw [← EReal.coe_mul]
  congr 1
  norm_num

/-- The closing arithmetic from the three sums. -/
def closing (s A B : EReal) : EReal :=
  Ideal.div ((-(Ideal.div (nTot : EReal) (s + 1))) * A - (Ideal.div (nTot : EReal) ((nTot : EReal) - s)) * B) (nTot : EReal)

/-- An entry's share of `A`: `log x` under the label `1`. -/
def term1 (x t : EReal) : EReal := if t = 1 then Ideal.log x else 0

/-- An entry's share of `B`, masked by the label `0`. -/
def term0R (x t : EReal) : EReal := if t = 0 then Ideal.log1p (-x) else 0

/-- An entry's share of `B`, as the one logarithm minus its share of `A`. -/
def term0K (x t : EReal) : EReal :=
  Ideal.log (if t = 1 then x else 1 - x) - (if t = 1 then Ideal.log (if t = 1 then x else 1 - x) else 0)

theorem log_coe_ne_top (r : ℝ) : Ideal.log (r : EReal) ≠ ⊤ := by
  rw [Ideal.log_coe]; split
  · exact bot_ne_top
  · exact EReal.coe_ne_top _

theorem term0R_ne_top (r : ℝ) (t : EReal) : term0R (r : EReal) t ≠ ⊤ := by
  unfold term0R; split
  · unfold Ideal.log1p
    rw [← EReal.coe_neg, ← EReal.coe_one, ← EReal.coe_add]
    exact log_coe_ne_top _
  · exact EReal.zero_ne_top

theorem term0R_one (x : EReal) : term0R x 1 = 0 := by
  unfold term0R; rw [if_neg one_ne_zero]

/-- On a binary label the two shares of `B` agree, or the label is `1` and the entry's logarithm is `-∞`. -/
theorem term0_cases (r : ℝ) (t : EReal) (ht : t = 0 ∨ t = 1) :
    term0K (r : EReal) t = term0R (r : EReal) t ∨ (t = 1 ∧ term1 (r : EReal) t = ⊥ ∧ term0K (r : EReal) t = ⊥) := by
  rcases ht with rfl | rfl
  · left
    unfold term0K term0R Ideal.log1p
    rw [if_neg zero_ne_one, if_neg zero_ne_one, if_pos rfl, sub_zero, sub_eq_add_neg]
  · unfold term0K term0R term1
    rw [if_pos rfl, if_pos rfl, if_neg one_ne_zero]
    by_cases hb : Ideal.log (r : EReal) = ⊥
    · right
      refine ⟨rfl, hb, ?_⟩
      rw [hb, sub_eq_add_neg, EReal.bot_add]
    · left
      have hy : ∃ y : ℝ, Ideal.log (r : EReal) = (y : EReal) := by
        rw [Ideal.log_coe] at hb ⊢
        split
        · rename_i h; rw [if_pos h] at hb; exact absurd rfl hb
        · exact ⟨_, rfl⟩
      obtain ⟨y, hy⟩ := hy
      rw [hy, ← EReal.coe_sub, sub_self, EReal.coe_zero]

/-- A sum with a `-∞` term is `-∞`. -/
theorem sum_eq_bot {ι : Type*} [DecidableEq ι] (s : Finset ι) (f : ι → EReal) (i0 : ι) (hi : i0 ∈ s) (h : f i0 = ⊥) :
    ∑ i ∈ s, f i = ⊥ := by
  rw [← Finset.add_sum_erase s f hi, h, EReal.bot_add]

/-- A sum of terms below `+∞` is below `+∞`. -/
theorem sum_ne_top {ι : Type*} [DecidableEq ι] (s : Finset ι) (f : ι → EReal) (h : ∀ i ∈ s, f i ≠ ⊤) :
    ∑ i ∈ s, f i ≠ ⊤ := by
  induction s using Finset.induction_on with
  | empty => simp
  | insert a s ha ih =>
    rw [Finset.sum_insert ha]
    exact EReal.add_ne_top (h a (Finset.mem_insert_self a s)) (ih fun i hi => h i (Finset.mem_insert_of_mem hi))

/-- A sum of real numbers, taken in the extended reals, is the real sum. -/
theorem coe_sum {ι : Type*} [DecidableEq ι] (s : Finset ι) (f : ι → ℝ) :
    ∑ i ∈ s, (f i : EReal) = ((∑ i ∈ s, f i : ℝ) : EReal) := by
  induction s using Finset.induction_on with
  | empty => simp
  | insert a s ha ih => rw [Finset.sum_insert ha, Finset.sum_insert ha, ih, EReal.coe_add]

/-- THE LAW: over `n` entries with finite `x` and binary labels, the loss closed over the one-logarithm shares of `B`
    is the loss closed over the masked shares. -/
theorem closing_eq {ι : Type*} [Fintype ι] [DecidableEq ι] (hcard : (Fintype.card ι : ℝ) = nTot)
    (x τ : ι → ℝ) (hτ : ∀ i, τ i = 0 ∨ τ i = 1) :
    closing (∑ i, (τ i : EReal)) (∑ i, term1 (x i : EReal) (τ i : EReal)) (∑ i, term0K (x i : EReal) (τ i : EReal))
      = closing (∑ i, (τ i : EReal)) (∑ i, term1 (x i : EReal) (τ i : EReal)) (∑ i, term0R (x i : EReal) (τ i : EReal)) := by
  by_cases hall : ∀ i, term0K (x i : EReal) (τ i : EReal) = term0R (x i : EReal) (τ i : EReal)
  · rw [Finset.sum_congr rfl (fun i _ => hall i)]
  · obtain ⟨i0, hi0⟩ := not_forall.mp hall
    have hτe : ∀ i, ((τ i : ℝ) : EReal) = 0 ∨ ((τ i : ℝ) : EReal) = 1 := fun i => by
      rcases hτ i with h | h
      · left; rw [h, EReal.coe_zero]
      · right; rw [h, EReal.coe_one]
    rcases term0_cases (x i0) (τ i0) (hτe i0) with h | ⟨ht1, h1, hK⟩
    · exact absurd h hi0
    have hτ1 : τ i0 = 1 := by
      rcases hτ i0 with h | h
      · rw [h, EReal.coe_zero] at ht1; exact absurd ht1 zero_ne_one
      · exact h
    rw [sum_eq_bot Finset.univ (fun i => term1 (x i : EReal) (τ i : EReal)) i0 (Finset.mem_univ _) h1,
      sum_eq_bot Finset.univ (fun i => term0K (x i : EReal) (τ i : EReal)) i0 (Finset.mem_univ _) hK, coe_sum]
    have hnn : ∀ i, 0 ≤ τ i := fun i => by rcases hτ i with h | h <;> rw [h] <;> norm_num
    have hle : ∀ i, τ i ≤ 1 := fun i => by rcases hτ i with h | h <;> rw [h] <;> norm_num
    have hσ1 : 1 ≤ ∑ i, τ i := by
      have := Finset.single_le_sum (f := τ) (fun i _ => hnn i) (Finset.mem_univ i0)
      rw [hτ1] at this; exact this
    have hσL : ∑ i, τ i ≤ nTot := by
      have := Finset.sum_le_sum (s := Finset.univ) (f := τ) (g := fun _ => (1 : ℝ)) (fun i _ => hle i)
      rw [Finset.sum_const, Finset.card_univ, nsmul_eq_mul, mul_one, hcard] at this
      exact this
    have hall1 : ∑ i, τ i = nTot → ∀ i, τ i = 1 := fun he i => by
      have h0 : ∑ i, (1 - τ i) = 0 := by
        rw [Finset.sum_sub_distrib, Finset.sum_const, Finset.card_univ, nsmul_eq_mul, mul_one, hcard, he, sub_self]
      have := (Finset.sum_eq_zero_iff_of_nonneg (fun i _ => sub_nonneg.mpr (hle i))).mp h0 i (Finset.mem_univ i)
      linarith
    set σ : ℝ := ∑ i, τ i with hσ
    have hBR : ∑ i, term0R (x i : EReal) (τ i : EReal) ≠ ⊤ :=
      sum_ne_top Finset.univ _ fun i _ => term0R_ne_top _ _
    have hBR0 : σ = nTot → ∑ i, term0R (x i : EReal) (τ i : EReal) = 0 := fun he => by
      refine Finset.sum_eq_zero fun i _ => ?_
      rw [hall1 he i, EReal.coe_one, term0R_one]
    have hnpos : (0 : ℝ) < nTot := by unfold nTot; norm_num
    unfold closing
    -- the weight of A is a positive real
    have ewp : Ideal.div (nTot : EReal) ((σ : EReal) + 1) = ((nTot * (1 / (σ + 1)) : ℝ) : EReal) := by
      rw [← EReal.coe_one, ← EReal.coe_add, Ideal.div_coe (by linarith : σ + 1 ≠ 0), ← EReal.coe_mul]
    have hwp : 0 < nTot * (1 / (σ + 1)) := by
      have : 0 < σ + 1 := by linarith
      positivity
    have e1 : (-(((nTot * (1 / (σ + 1)) : ℝ)) : EReal)) * ⊥ = ⊤ := by
      rw [← EReal.coe_neg]; exact EReal.coe_mul_bot_of_neg (by linarith)
    rw [ewp, e1]
    -- the weight of B is positive
    have hwn : 0 < Ideal.div (nTot : EReal) ((nTot : EReal) - (σ : EReal)) := by
      rw [← EReal.coe_sub]
      by_cases hz : nTot - σ = 0
      · rw [hz, EReal.coe_zero, Ideal.div, if_pos rfl, if_pos (EReal.coe_pos.mpr hnpos)]
        exact EReal.zero_lt_top
      · rw [Ideal.div_coe hz, ← EReal.coe_mul]
        have : 0 < nTot - σ := lt_of_le_of_ne (by linarith) (Ne.symm hz)
        exact EReal.coe_pos.mpr (by positivity)
    have hwnT : Ideal.div (nTot : EReal) ((nTot : EReal) - (σ : EReal)) = ⊤ → σ = nTot := fun hT => by
      by_contra hne
      rw [← EReal.coe_sub, Ideal.div_coe (sub_ne_zero.mpr (Ne.symm hne)), ← EReal.coe_mul] at hT
      exact EReal.coe_ne_top _ hT
    rw [EReal.mul_bot_of_pos hwn, EReal.top_sub_bot]
    have e3 : Ideal.div (nTot : EReal) ((nTot : EReal) - (σ : EReal)) * ∑ i, term0R (x i : EReal) (τ i : EReal) ≠ ⊤ := by
      rw [Ne, EReal.mul_eq_top]
      rintro (⟨hb, -⟩ | ⟨hn, -⟩ | ⟨ht, hp⟩ | ⟨-, hT⟩)
      · rw [hb] at hwn; exact absurd hwn (not_lt.mpr bot_le)
      · exact absurd hn (not_lt.mpr hwn.le)
      · rw [hBR0 (hwnT ht)] at hp; exact absurd hp (lt_irrefl _)
      · exact hBR hT
    rw [EReal.top_sub e3]

/-! ## The four totals over the `[32768, 1000]` arrays -/

/-- The sum of the labels. -/
def totS (t : Fin 32768 → Fin 1000 → BitVec 32) : EReal := ∑ p : Fin 32768 × Fin 1000, lab (t p.1 p.2)
/-- The sum of `log x` under the label `1`. -/
def tot1 (x : Fin 32768 → Fin 1000 → EReal) (t : Fin 32768 → Fin 1000 → BitVec 32) : EReal :=
  ∑ p : Fin 32768 × Fin 1000, term1 (x p.1 p.2) (lab (t p.1 p.2))
/-- The other sum, from the one logarithm per entry. -/
def tot0K (x : Fin 32768 → Fin 1000 → EReal) (t : Fin 32768 → Fin 1000 → BitVec 32) : EReal :=
  ∑ p : Fin 32768 × Fin 1000, term0K (x p.1 p.2) (lab (t p.1 p.2))
/-- The other sum, masked by the label `0`. -/
def tot0R (x : Fin 32768 → Fin 1000 → EReal) (t : Fin 32768 → Fin 1000 → BitVec 32) : EReal :=
  ∑ p : Fin 32768 × Fin 1000, term0R (x p.1 p.2) (lab (t p.1 p.2))

/-- The loss of finite probabilities and binary labels, closed over either form of the second sum. -/
theorem loss_eq (x : Fin 32768 → Fin 1000 → EReal) (t : Fin 32768 → Fin 1000 → BitVec 32)
    (hx : ∀ r c, ∃ y : ℝ, x r c = (y : EReal)) (ht : ∀ r c, t r c = 0#32 ∨ t r c = 1#32) :
    closing (totS t) (tot1 x t) (tot0K x t) = closing (totS t) (tot1 x t) (tot0R x t) := by
  choose y hy using hx
  have hcard : (Fintype.card (Fin 32768 × Fin 1000) : ℝ) = nTot := by
    rw [Fintype.card_prod, Fintype.card_fin, Fintype.card_fin]; unfold nTot; norm_num
  have hτ : ∀ p : Fin 32768 × Fin 1000, (((t p.1 p.2).toInt : ℝ)) = 0 ∨ (((t p.1 p.2).toInt : ℝ)) = 1 := fun p => by
    rcases ht p.1 p.2 with h | h
    · left; rw [h]; norm_num
    · right; rw [h]; norm_num
  have := closing_eq hcard (fun p => y p.1 p.2) (fun p => ((t p.1 p.2).toInt : ℝ)) hτ
  unfold totS tot1 tot0K tot0R
  simp only [hy]
  exact this

end Cert.LossAlgebra

end
-- ==== Proof.PreDecode.lean ====
/-
  The precondition, read entry by entry.

  The precondition is the conjunction of two `all`s over the `[32768, 1000]` arrays: `|x| < +∞` at every entry of the
  probabilities, and `t = 0 ∨ t = 1` at every entry of the labels. An `all` that is true is true at every entry; an
  extended real whose absolute value is below `+∞` is neither infinity, so it is a real number.
-/
import proofs.«174111_j72258529788243_2_alg».proof.Pre_finite_inputs
import proofs.«174111_j72258529788243_2_alg».proof.Proof.Gen.Pre_finite_inputs
import Idealize.ShloMosaic.PureOps.Ideal
import Idealize.ShloMosaic.Lib.ReduceAll
import Idealize.ShloMosaic.Lib.Affine
import Idealize.ShloMosaic.Lib.ValueIdx

noncomputable section

open Idealize.ShloMosaic

namespace Cert.PreDecode

open Cert.Pre_finite_inputs Cert.Pre_finite_inputs.Gen

instance : Subsingleton S_.Idx := ⟨fun a b => funext fun d => d.elim0⟩

/-- The f32 word of `+∞` is the top of the extended reals. -/
theorem ofBits_inf : Ideal.ofBits .f32 0x7F800000#32 = (⊤ : EReal) := by simp [Ideal.ofBits, Ideal.ieee]

/-- Under the precondition every probability is a real number and every label word is `0` or `1`. -/
theorem decode (x0 : FVec Ideal S32768x1000 .f32) (x1 : IVec S32768x1000 32)
    (h : Cert.Pre_finite_inputs.fn (F := Ideal) x0 x1 = fun _ => 1#1) (i : S32768x1000.Idx) :
    (∃ y : ℝ, x0 i = (y : EReal)) ∧ (x1 i = 0#32 ∨ x1 i = 1#32) := by
  have e := congrFun h ValueIdx.ix0
  dsimp only [fn] at e
  have e' : IntOp.andi
      (Host.reduce IntOp.andi (cmpf (F := Ideal) .olt (Host.absf x0) (broadcastInDim S32768x1000 ![] bcast_S_S32768x1000 (constant (F := Ideal) S_ .f32 0x7F800000#32)))
        (constantI S_ 1 1#1) reducesTo_S32768x1000_S_d0_1 h_S_ ValueIdx.ix0)
      (Host.reduce IntOp.andi (ori (cmpi .eq x1 (broadcastInDim S32768x1000 ![] bcast_S_S32768x1000 (constantI S_ 32 0#32)))
          (cmpi .eq x1 (broadcastInDim S32768x1000 ![] bcast_S_S32768x1000 (constantI S_ 32 1#32))))
        (constantI S_ 1 1#1) reducesTo_S32768x1000_S_d0_1 h_S_ ValueIdx.ix0) = 1#1 := e
  rw [IntOp.andi_eq_one] at e'
  obtain ⟨ea, eb⟩ := e'
  have ha := Host.reduce_andi_all _ _ _ _ _ ea i
  have hb := Host.reduce_andi_all _ _ _ _ _ eb i
  constructor
  · have ha' : Ideal.cmp .olt (max (x0 i) (-(x0 i))) (Ideal.ofBits .f32 0x7F800000#32) = 1#1 := ha
    rw [ofBits_inf] at ha'
    have hb' : x0 i ≠ ⊥ := by
      intro hx; rw [hx] at ha'; simp [Ideal.cmp] at ha'
    have ht' : x0 i ≠ ⊤ := by
      intro hx; rw [hx] at ha'; simp [Ideal.cmp] at ha'
    exact ⟨(x0 i).toReal, (EReal.coe_toReal ht' hb').symm⟩
  · have hb' : IntOp.ori (IntOp.cmpi .eq (x1 i) 0#32) (IntOp.cmpi .eq (x1 i) 1#32) = 1#1 := hb
    rw [IntOp.ori_eq_one, IntOp.cmpi_eq, IntOp.cmpi_eq] at hb'
    exact hb'

end Cert.PreDecode

end
-- ==== Proof.SumShapes.lean ====
/-
  One sum over a `[32768, 1000]` array, three ways of walking it.

  The same entries can be walked row by row and column by column (`∑ r, ∑ c`), in the flat row-major order of the
  array reshaped to `[32768000]` (entry `k` is row `k / 1000`, column `k % 1000`), or block by block — 32 blocks of
  1024 rows, row `r'` of block `b` being row `1024 b + r'`. Addition on the extended reals is commutative and
  associative, so the three walks give one sum.
-/
import Idealize.ShloMosaic.Lib.ValueIdx
import Idealize.ShloMosaic.Lib.Pipeline.Value

noncomputable section

open scoped BigOperators
open Idealize.ShloMosaic Idealize.ShloMosaic.ValueIdx

namespace Cert.SumShapes

/-- Flat position `1000 r + c` of entry `(r, c)`. -/
def flat (r : Fin 32768) (c : Fin 1000) : Fin 32768000 := ⟨r.val * 1000 + c.val, by have := r.isLt; have := c.isLt; omega⟩

/-- The flat positions are the pairs (row, column). -/
def flatEquiv : Fin 32768 × Fin 1000 ≃ Fin 32768000 where
  toFun p := flat p.1 p.2
  invFun k := (⟨k.val / 1000, by have := k.isLt; omega⟩, ⟨k.val % 1000, by omega⟩)
  left_inv p := by
    obtain ⟨r, c⟩ := p
    have := r.isLt; have := c.isLt
    refine Prod.ext (Fin.ext ?_) (Fin.ext ?_)
    · show (r.val * 1000 + c.val) / 1000 = r.val; omega
    · show (r.val * 1000 + c.val) % 1000 = c.val; omega
  right_inv k := by
    apply Fin.ext
    show k.val / 1000 * 1000 + k.val % 1000 = k.val; omega

/-- Row `1024 b + r'`: row `r'` of block `b`. -/
def blockRow (b : Fin 32) (r' : Fin 1024) : Fin 32768 := ⟨1024 * b.val + r'.val, by have := b.isLt; have := r'.isLt; omega⟩

/-- The rows are the pairs (block, row in the block). -/
def blockEquiv : Fin 32 × Fin 1024 ≃ Fin 32768 where
  toFun p := blockRow p.1 p.2
  invFun r := (⟨r.val / 1024, by have := r.isLt; omega⟩, ⟨r.val % 1024, by omega⟩)
  left_inv p := by
    obtain ⟨b, r'⟩ := p
    have := b.isLt; have := r'.isLt
    refine Prod.ext (Fin.ext ?_) (Fin.ext ?_)
    · show (1024 * b.val + r'.val) / 1024 = b.val; omega
    · show (1024 * b.val + r'.val) % 1024 = r'.val; omega
  right_inv r := by
    apply Fin.ext
    show 1024 * (r.val / 1024) + r.val % 1024 = r.val; omega

/-- A rank-1 index is its coordinate. -/
def idxEquiv1 {n : Nat} : (⟨1, ![n]⟩ : Shape).Idx ≃ Fin n where
  toFun i := i 0
  invFun := ix1
  left_inv i := (eq_ix1 i).symm
  right_inv _ := rfl

/-- The flat walk is the row-by-row walk. -/
theorem sum_flat {M : Type*} [AddCommMonoid M] (g : (⟨1, ![32768000]⟩ : Shape).Idx → M) :
    ∑ i, g i = ∑ r : Fin 32768, ∑ c : Fin 1000, g (ix1 (flat r c)) := by
  rw [← Equiv.sum_comp (idxEquiv1 (n := 32768000)).symm g, ← Equiv.sum_comp flatEquiv, Fintype.sum_prod_type]
  rfl

/-- The block-by-block walk is the row-by-row walk. -/
theorem sum_blocks {M : Type*} [AddCommMonoid M] (g : Fin 32768 → M) :
    ∑ b : Fin 32, ∑ r' : Fin 1024, g (blockRow b r') = ∑ r : Fin 32768, g r := by
  rw [← Equiv.sum_comp blockEquiv g, Fintype.sum_prod_type]
  rfl

/-- The array reshaped to `[32768000]` holds, at flat position `1000 r + c`, entry `(r, c)`. -/
theorem reshape_flat {α : Type} (x : (⟨2, ![32768, 1000]⟩ : Shape).Idx → α)
    (h : (⟨2, ![32768, 1000]⟩ : Shape).ShapeCasts ⟨1, ![32768000]⟩) (r : Fin 32768) (c : Fin 1000) :
    shapeCast ⟨1, ![32768000]⟩ x h (ix1 (flat r c)) = x (ix2 r c) :=
  shapeCast_apply x h _ _ (by
    rw [Shape.rowMajor_val_two, Shape.rowMajor_val_one]
    rfl)

/-- The two-level walk (rows, then columns) as one sum over the pairs. -/
theorem sum_pairs {M : Type*} [AddCommMonoid M] (f : Fin 32768 → Fin 1000 → M) :
    ∑ r : Fin 32768, ∑ c : Fin 1000, f r c = ∑ p : Fin 32768 × Fin 1000, f p.1 p.2 :=
  (Fintype.sum_prod_type fun p : Fin 32768 × Fin 1000 => f p.1 p.2).symm

end Cert.SumShapes

end
-- ==== Proof.RefValue.lean ====
/-
  The reference's result as one function of the argument arrays.

  The reference flattens both arrays to `[32768000]`, converts the labels to reals, and takes three total sums: of the
  labels, of `log x` where the label is `1` (else `0`), and of `log1p (-x)` where the label is `0` (else `0`). A host sum
  into a scalar is, on the extended reals, the initial value `0` plus the sum over every flat position; the flat
  position `1000 r + c` of the reshaped array is entry `(r, c)`. So the three sums are the totals `totS`, `tot1`, `tot0R`
  of the loss, and the remaining eight scalar operations are its closing arithmetic.
-/
import proofs.«174111_j72258529788243_2_alg».proof.Defs
import proofs.«174111_j72258529788243_2_alg».proof.Proof.RefRun
import proofs.«174111_j72258529788243_2_alg».proof.Proof.LossAlgebra
import proofs.«174111_j72258529788243_2_alg».proof.Proof.SumShapes
import Idealize.ShloMosaic.PureOps.Ideal.Laws

noncomputable section

open scoped BigOperators
open Idealize.ShloMosaic Idealize.ShloMosaic.ValueIdx

namespace Cert.ReferenceIdeal.RefValue

open Cert.ReferenceIdeal Cert.ReferenceIdeal.Gen Cert.LossAlgebra Cert.SumShapes

/-- The reference's sum of the converted labels. -/
def refS (x1 : IVec S32768x1000 32) : FVec Ideal S_ .f32 :=
  Host.reduceAdd (sitofp (F := Ideal) .f32 (shapeCast _ x1 shapeCasts_S32768x1000_S32768000)) (constant (F := Ideal) S_ .f32 0x00000000#32) reducesTo_S32768000_S_d0 h_S_

/-- The reference's sum of `log x` under the label `1`. -/
def ref1 (x0 : FVec Ideal S32768x1000 .f32) (x1 : IVec S32768x1000 32) : FVec Ideal S_ .f32 :=
  Host.reduceAdd (select (cmpf (F := Ideal) .oeq (sitofp (F := Ideal) .f32 (shapeCast _ x1 shapeCasts_S32768x1000_S32768000)) (broadcastInDim S32768000 ![] bcast_S_S32768000 (constant (F := Ideal) S_ .f32 0x3F800000#32))) (Host.log (shapeCast _ x0 shapeCasts_S32768x1000_S32768000 : FVec Ideal S32768000 .f32)) (broadcastInDim S32768000 ![] bcast_S_S32768000 (id (constant (F := Ideal) S_ .f32 0x00000000#32)))) (constant (F := Ideal) S_ .f32 0x00000000#32) reducesTo_S32768000_S_d0 h_S_

/-- The reference's sum of `log1p (-x)` under the label `0`. -/
def ref0 (x0 : FVec Ideal S32768x1000 .f32) (x1 : IVec S32768x1000 32) : FVec Ideal S_ .f32 :=
  Host.reduceAdd (select (cmpf (F := Ideal) .oeq (sitofp (F := Ideal) .f32 (shapeCast _ x1 shapeCasts_S32768x1000_S32768000)) (broadcastInDim S32768000 ![] bcast_S_S32768000 (constant (F := Ideal) S_ .f32 0x00000000#32))) (Host.log1p (Host.negf (shapeCast _ x0 shapeCasts_S32768x1000_S32768000 : FVec Ideal S32768000 .f32))) (broadcastInDim S32768000 ![] bcast_S_S32768000 (id (constant (F := Ideal) S_ .f32 0x00000000#32)))) (constant (F := Ideal) S_ .f32 0x00000000#32) reducesTo_S32768000_S_d0 h_S_

/-- The reference's result: the closing arithmetic on its three sums. -/
def refResult (x0 : FVec Ideal S32768x1000 .f32) (x1 : IVec S32768x1000 32) : FVec Ideal S_ .f32 :=
  Host.divf (subf (mulf (Host.negf (Host.divf (constant (F := Ideal) S_ .f32 0x4BFA0000#32) (addf (refS x1) (constant (F := Ideal) S_ .f32 0x3F800000#32)))) (ref1 x0 x1))
    (mulf (Host.divf (constant (F := Ideal) S_ .f32 0x4BFA0000#32) (subf (constant (F := Ideal) S_ .f32 0x4BFA0000#32) (refS x1))) (ref0 x0 x1))) (constant (F := Ideal) S_ .f32 0x4BFA0000#32)

/-- A host sum of a `[32768000]` vector into a scalar, from zero: the row-by-row sum of its entries. -/
theorem hsum (y : FVec Ideal S32768000 .f32) (j : S_.Idx) :
    Host.reduceAdd (F := Ideal) y (constant (F := Ideal) S_ .f32 0x00000000#32) reducesTo_S32768000_S_d0 h_S_ j
      = ∑ r : Fin 32768, ∑ c : Fin 1000, (y (ix1 (flat r c)) : EReal) := by
  simp only [Host.reduceAdd, Ideal.hostReduceAdd_def]
  rw [Ideal.hostReduceAdd_total reducesTo_S32768000_S_d0 (fun b => b.elim0) y _ j]
  rw [show (constant (F := Ideal) S_ .f32 0x00000000#32) (Shape.Idx.first h_S_) = Ideal.ofBits .f32 0x00000000#32 from rfl,
    Ideal.ofBits_zero_f32, zero_add]
  exact sum_flat y

theorem refS_apply (x1 : IVec S32768x1000 32) (j : S_.Idx) : refS x1 j = totS fun r c => x1 (ix2 r c) := by
  unfold refS totS
  rw [hsum, sum_pairs]
  refine Finset.sum_congr rfl fun p _ => ?_
  show lab (shapeCast _ x1 shapeCasts_S32768x1000_S32768000 (ix1 (flat p.1 p.2))) = _
  rw [reshape_flat]

theorem ref1_apply (x0 : FVec Ideal S32768x1000 .f32) (x1 : IVec S32768x1000 32) (j : S_.Idx) :
    ref1 x0 x1 j = tot1 (fun r c => x0 (ix2 r c)) fun r c => x1 (ix2 r c) := by
  unfold ref1 tot1
  rw [hsum, sum_pairs]
  refine Finset.sum_congr rfl fun p _ => ?_
  show Scalar.select (Ideal.cmp .oeq (lab (shapeCast _ x1 shapeCasts_S32768x1000_S32768000 (ix1 (flat p.1 p.2)))) (Ideal.ofBits .f32 0x3F800000#32))
      (Ideal.log (shapeCast _ x0 shapeCasts_S32768x1000_S32768000 (ix1 (flat p.1 p.2)))) (Ideal.ofBits .f32 0x00000000#32) = _
  rw [reshape_flat, reshape_flat, ofBits_one_f32, Ideal.ofBits_zero_f32]
  exact select_decide _ _ _

theorem ref0_apply (x0 : FVec Ideal S32768x1000 .f32) (x1 : IVec S32768x1000 32) (j : S_.Idx) :
    ref0 x0 x1 j = tot0R (fun r c => x0 (ix2 r c)) fun r c => x1 (ix2 r c) := by
  unfold ref0 tot0R
  rw [hsum, sum_pairs]
  refine Finset.sum_congr rfl fun p _ => ?_
  show Scalar.select (Ideal.cmp .oeq (lab (shapeCast _ x1 shapeCasts_S32768x1000_S32768000 (ix1 (flat p.1 p.2)))) (Ideal.ofBits .f32 0x00000000#32))
      (Ideal.log1p (-(shapeCast _ x0 shapeCasts_S32768x1000_S32768000 (ix1 (flat p.1 p.2))))) (Ideal.ofBits .f32 0x00000000#32) = _
  rw [reshape_flat, reshape_flat, Ideal.ofBits_zero_f32]
  exact select_decide _ _ _

/-- The host's quotient and negation of scalars, at the one index. -/
theorem hdiv_at (a b : FVec Ideal S_ .f32) (j : S_.Idx) : Host.divf a b j = Ideal.div (a j) (b j) := rfl
theorem hneg_at (a : FVec Ideal S_ .f32) (j : S_.Idx) : Host.negf a j = -(a j) := rfl

/-- The reference's result is the loss closed over the masked second sum. -/
theorem refResult_apply (x0 : FVec Ideal S32768x1000 .f32) (x1 : IVec S32768x1000 32) (j : S_.Idx) :
    refResult x0 x1 j = closing (totS fun r c => x1 (ix2 r c)) (tot1 (fun r c => x0 (ix2 r c)) fun r c => x1 (ix2 r c))
      (tot0R (fun r c => x0 (ix2 r c)) fun r c => x1 (ix2 r c)) := by
  unfold refResult closing
  rw [hdiv_at, subf_apply, mulf_apply, hneg_at, hdiv_at, addf_apply, mulf_apply, hdiv_at, subf_apply,
    constant_apply, constant_apply, refS_apply, ref1_apply, ref0_apply, ofBits_nTot, ofBits_one_f32]

end Cert.ReferenceIdeal.RefValue

end
-- ==== Proof.KernelCases.lean ====
/-
  What the kernel body leaves, case by case, as the body's own pure terms.

  The body keeps three running sums in three one-entry scratch buffers. At the first point of a core's sixteen
  (case A) it stores zero into each and then adds the point's block sums; at the later points (cases B and C) it adds
  the point's block sums to what the point before left. At the last of the sixteen (case C) it also fills each of
  its three output blocks with zeros and then overwrites the corner entry `(0, 0)` with the running sum.
-/
import proofs.«174111_j72258529788243_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Cases

open Cert.KernelIdeal Cert.KernelIdeal.Gen

variable {F : FTy → Type} [FloatOps F]

theorem hz : (![0, 0] : Fin 2 → Nat) = fun _ => 0 := funext fun a => by fin_cases a <;> rfl

/-- An `[8, 128]` block written whole with `z` and then overwritten at its corner entry with the one entry of `a`. -/
def cornerOver (a : Vec F S1x1 .f32) (z : Vec F S8x128 .f32) : Vec F S8x128 .f32 :=
  View.canon [⟨Rect.unit (s := S8x128) ![0, 0] S1x1.size inb_S8x128_S1x1_0_0, a⟩,
    ⟨Rect.unit (s := S8x128) ![0, 0] S8x128.size inb_S8x128_S8x128_0_0, z⟩]

/-- Case A: the running sum of the labels after the body (started from the zero the body has just stored). -/
theorem scratch_A_0 (c : Dev nD) (i : grid0.Coords) (arg2 : Memref sig .tc .vmem S1024x1000 .f32) (harg2 : arg2.IsWhole) (arg3 : Memref sig .tc .vmem S1024x1000 .i32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : cond0_0 i) (hc1 : ¬cond0_1 i)
    (x0 : Vec F S1024x1000 .f32) (x1 : Vec F S1024x1000 .i32) :
    sout0_A_0 c i arg2 harg2 arg3 harg3 arg4 harg4 arg5 harg5 arg6 harg6 arg7 harg7 arg8 harg8 arg9 harg9 hc0 hc1 x0 x1 = k0_pay14 x1 (k0_pay6 (F := F)) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1)]
  unfold kernelRun0_A
  dsimp only
  sl_unfold_words
  rw [View.canon_cons_unit_zero (S := S1x1) hz, View.readCov_unit_zero (S := S1x1) _ hz]
  simp only [View.readAt_eq_ld, harg2.read_unread, harg3.read_unread, View.ld_unit_zero (S := S1024x1000) hz]

/-- Case A: the running sum of the label-1 logarithms after the body. -/
theorem scratch_A_1 (c : Dev nD) (i : grid0.Coords) (arg2 : Memref sig .tc .vmem S1024x1000 .f32) (harg2 : arg2.IsWhole) (arg3 : Memref sig .tc .vmem S1024x1000 .i32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : cond0_0 i) (hc1 : ¬cond0_1 i)
    (x0 : Vec F S1024x1000 .f32) (x1 : Vec F S1024x1000 .i32) :
    sout0_A_1 c i arg2 harg2 arg3 harg3 arg4 harg4 arg5 harg5 arg6 harg6 arg7 harg7 arg8 harg8 arg9 harg9 hc0 hc1 x0 x1 = k0_pay1 (k0_pay15 x0 x1 (k0_pay7 (F := F))) := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1)]
  unfold kernelRun0_A
  dsimp only
  sl_unfold_words
  rw [View.canon_cons_unit_zero (S := S1x1) hz, View.readCov_unit_zero (S := S1x1) _ hz]
  simp only [View.readAt_eq_ld, harg2.read_unread, harg3.read_unread, View.ld_unit_zero (S := S1024x1000) hz]

/-- Case A: the running sum of the remaining logarithms after the body. -/
theorem scratch_A_2 (c : Dev nD) (i : grid0.Coords) (arg2 : Memref sig .tc .vmem S1024x1000 .f32) (harg2 : arg2.IsWhole) (arg3 : Memref sig .tc .vmem S1024x1000 .i32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : cond0_0 i) (hc1 : ¬cond0_1 i)
    (x0 : Vec F S1024x1000 .f32) (x1 : Vec F S1024x1000 .i32) :
    sout0_A_2 c i arg2 harg2 arg3 harg3 arg4 harg4 arg5 harg5 arg6 harg6 arg7 harg7 arg8 harg8 arg9 harg9 hc0 hc1 x0 x1 = k0_pay2 (k0_pay13 x0 x1) (k0_pay8 (F := F)) := by
  unfold sout0_A_2
  rw [View.read_writes_eq_canon _ _ _ (scover0_A_2 c i arg2 harg2 arg3 harg3 arg4 harg4 arg5 harg5 arg6 harg6 arg7 harg7 arg8 harg8 arg9 harg9 hc0 hc1 x0 x1)]
  unfold kernelRun0_A
  dsimp only
  sl_unfold_words
  rw [View.canon_cons_unit_zero (S := S1x1) hz, View.readCov_unit_zero (S := S1x1) _ hz]
  simp only [View.readAt_eq_ld, harg2.read_unread, harg3.read_unread, View.ld_unit_zero (S := S1024x1000) hz]

/-- Case B: the running sum of the labels after the body. -/
theorem scratch_B_0 (c : Dev nD) (i : grid0.Coords) (arg2 : Memref sig .tc .vmem S1024x1000 .f32) (harg2 : arg2.IsWhole) (arg3 : Memref sig .tc .vmem S1024x1000 .i32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : ¬cond0_1 i)
    (x0 : Vec F S1024x1000 .f32) (x1 : Vec F S1024x1000 .i32) (xs0 xs1 xs2 : Vec F S1x1 .f32) :
    sout0_B_0 c i arg2 harg2 arg3 harg3 arg4 harg4 arg5 harg5 arg6 harg6 arg7 harg7 arg8 harg8 arg9 harg9 hc0 hc1 x0 x1 xs0 xs1 xs2 = k0_pay14 x1 xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 xs0 xs1 xs2)]
  unfold kernelRun0_B
  dsimp only
  (try sl_unfold_words)
  rw [View.canon_unit_zero hz]
  simp only [View.readAt_eq_ld, harg2.read_unread, harg3.read_unread, harg7.read_unread, harg8.read_unread, harg9.read_unread,
    View.ld_unit_zero (S := S1024x1000) hz, View.ld_unit_zero (S := S1x1) hz]

/-- Case B: the running sum of the label-1 logarithms after the body. -/
theorem scratch_B_1 (c : Dev nD) (i : grid0.Coords) (arg2 : Memref sig .tc .vmem S1024x1000 .f32) (harg2 : arg2.IsWhole) (arg3 : Memref sig .tc .vmem S1024x1000 .i32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : ¬cond0_1 i)
    (x0 : Vec F S1024x1000 .f32) (x1 : Vec F S1024x1000 .i32) (xs0 xs1 xs2 : Vec F S1x1 .f32) :
    sout0_B_1 c i arg2 harg2 arg3 harg3 arg4 harg4 arg5 harg5 arg6 harg6 arg7 harg7 arg8 harg8 arg9 harg9 hc0 hc1 x0 x1 xs0 xs1 xs2 = k0_pay1 (k0_pay15 x0 x1 xs1) := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 xs0 xs1 xs2)]
  unfold kernelRun0_B
  dsimp only
  (try sl_unfold_words)
  rw [View.canon_unit_zero hz]
  simp only [View.readAt_eq_ld, harg2.read_unread, harg3.read_unread, harg7.read_unread, harg8.read_unread, harg9.read_unread,
    View.ld_unit_zero (S := S1024x1000) hz, View.ld_unit_zero (S := S1x1) hz]

/-- Case B: the running sum of the remaining logarithms after the body. -/
theorem scratch_B_2 (c : Dev nD) (i : grid0.Coords) (arg2 : Memref sig .tc .vmem S1024x1000 .f32) (harg2 : arg2.IsWhole) (arg3 : Memref sig .tc .vmem S1024x1000 .i32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : ¬cond0_1 i)
    (x0 : Vec F S1024x1000 .f32) (x1 : Vec F S1024x1000 .i32) (xs0 xs1 xs2 : Vec F S1x1 .f32) :
    sout0_B_2 c i arg2 harg2 arg3 harg3 arg4 harg4 arg5 harg5 arg6 harg6 arg7 harg7 arg8 harg8 arg9 harg9 hc0 hc1 x0 x1 xs0 xs1 xs2 = k0_pay2 (k0_pay13 x0 x1) xs2 := by
  unfold sout0_B_2
  rw [View.read_writes_eq_canon _ _ _ (scover0_B_2 c i arg2 harg2 arg3 harg3 arg4 harg4 arg5 harg5 arg6 harg6 arg7 harg7 arg8 harg8 arg9 harg9 hc0 hc1 x0 x1 xs0 xs1 xs2)]
  unfold kernelRun0_B
  dsimp only
  (try sl_unfold_words)
  rw [View.canon_unit_zero hz]
  simp only [View.readAt_eq_ld, harg2.read_unread, harg3.read_unread, harg7.read_unread, harg8.read_unread, harg9.read_unread,
    View.ld_unit_zero (S := S1024x1000) hz, View.ld_unit_zero (S := S1x1) hz]

/-- Case C: the running sum of the labels after the body. -/
theorem scratch_C_0 (c : Dev nD) (i : grid0.Coords) (arg2 : Memref sig .tc .vmem S1024x1000 .f32) (harg2 : arg2.IsWhole) (arg3 : Memref sig .tc .vmem S1024x1000 .i32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i)
    (x0 : Vec F S1024x1000 .f32) (x1 : Vec F S1024x1000 .i32) (xs0 xs1 xs2 : Vec F S1x1 .f32) :
    sout0_C_0 c i arg2 harg2 arg3 harg3 arg4 harg4 arg5 harg5 arg6 harg6 arg7 harg7 arg8 harg8 arg9 harg9 hc0 hc1 x0 x1 xs0 xs1 xs2 = k0_pay14 x1 xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 xs0 xs1 xs2)]
  unfold kernelRun0_C
  dsimp only
  (try sl_unfold_words)
  rw [View.canon_unit_zero hz]
  simp only [View.readAt_eq_ld, harg2.read_unread, harg3.read_unread, harg7.read_unread, harg8.read_unread, harg9.read_unread,
    View.ld_unit_zero (S := S1024x1000) hz, View.ld_unit_zero (S := S1x1) hz]

/-- Case C: the running sum of the label-1 logarithms after the body. -/
theorem scratch_C_1 (c : Dev nD) (i : grid0.Coords) (arg2 : Memref sig .tc .vmem S1024x1000 .f32) (harg2 : arg2.IsWhole) (arg3 : Memref sig .tc .vmem S1024x1000 .i32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i)
    (x0 : Vec F S1024x1000 .f32) (x1 : Vec F S1024x1000 .i32) (xs0 xs1 xs2 : Vec F S1x1 .f32) :
    sout0_C_1 c i arg2 harg2 arg3 harg3 arg4 harg4 arg5 harg5 arg6 harg6 arg7 harg7 arg8 harg8 arg9 harg9 hc0 hc1 x0 x1 xs0 xs1 xs2 = k0_pay1 (k0_pay15 x0 x1 xs1) := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 xs0 xs1 xs2)]
  unfold kernelRun0_C
  dsimp only
  (try sl_unfold_words)
  rw [View.canon_unit_zero hz]
  simp only [View.readAt_eq_ld, harg2.read_unread, harg3.read_unread, harg7.read_unread, harg8.read_unread, harg9.read_unread,
    View.ld_unit_zero (S := S1024x1000) hz, View.ld_unit_zero (S := S1x1) hz]

/-- Case C: the running sum of the remaining logarithms after the body. -/
theorem scratch_C_2 (c : Dev nD) (i : grid0.Coords) (arg2 : Memref sig .tc .vmem S1024x1000 .f32) (harg2 : arg2.IsWhole) (arg3 : Memref sig .tc .vmem S1024x1000 .i32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i)
    (x0 : Vec F S1024x1000 .f32) (x1 : Vec F S1024x1000 .i32) (xs0 xs1 xs2 : Vec F S1x1 .f32) :
    sout0_C_2 c i arg2 harg2 arg3 harg3 arg4 harg4 arg5 harg5 arg6 harg6 arg7 harg7 arg8 harg8 arg9 harg9 hc0 hc1 x0 x1 xs0 xs1 xs2 = k0_pay2 (k0_pay13 x0 x1) xs2 := by
  unfold sout0_C_2
  rw [View.read_writes_eq_canon _ _ _ (scover0_C_2 c i arg2 harg2 arg3 harg3 arg4 harg4 arg5 harg5 arg6 harg6 arg7 harg7 arg8 harg8 arg9 harg9 hc0 hc1 x0 x1 xs0 xs1 xs2)]
  unfold kernelRun0_C
  dsimp only
  (try sl_unfold_words)
  rw [View.canon_unit_zero hz]
  simp only [View.readAt_eq_ld, harg2.read_unread, harg3.read_unread, harg7.read_unread, harg8.read_unread, harg9.read_unread,
    View.ld_unit_zero (S := S1024x1000) hz, View.ld_unit_zero (S := S1x1) hz]

/-- Case C: output block 2 ends as the zero block with its corner entry overwritten by the running sum. -/
theorem out_C_2 (c : Dev nD) (i : grid0.Coords) (arg2 : Memref sig .tc .vmem S1024x1000 .f32) (harg2 : arg2.IsWhole) (arg3 : Memref sig .tc .vmem S1024x1000 .i32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i)
    (x0 : Vec F S1024x1000 .f32) (x1 : Vec F S1024x1000 .i32) (xs0 xs1 xs2 : Vec F S1x1 .f32) :
    out0_C_2 c i arg2 harg2 arg3 harg3 arg4 harg4 arg5 harg5 arg6 harg6 arg7 harg7 arg8 harg8 arg9 harg9 hc0 hc1 x0 x1 xs0 xs1 xs2 = cornerOver (k0_pay14 x1 xs0) (k0_pay3 (F := F)) := by
  unfold out0_C_2
  rw [View.read_writes_eq_canon _ _ _ (cover0_C_2 c i arg2 harg2 arg3 harg3 arg4 harg4 arg5 harg5 arg6 harg6 arg7 harg7 arg8 harg8 arg9 harg9 hc0 hc1 x0 x1 xs0 xs1 xs2)]
  unfold kernelRun0_C
  dsimp only
  sl_unfold_words
  rw [View.readCov_unit_zero (S := S1x1) _ hz]
  simp only [View.readAt_eq_ld, harg2.read_unread, harg3.read_unread, harg7.read_unread, harg8.read_unread, harg9.read_unread,
    View.ld_unit_zero (S := S1024x1000) hz, View.ld_unit_zero (S := S1x1) hz]
  rfl

/-- Case C: output block 3 ends as the zero block with its corner entry overwritten by the running sum. -/
theorem out_C_3 (c : Dev nD) (i : grid0.Coords) (arg2 : Memref sig .tc .vmem S1024x1000 .f32) (harg2 : arg2.IsWhole) (arg3 : Memref sig .tc .vmem S1024x1000 .i32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i)
    (x0 : Vec F S1024x1000 .f32) (x1 : Vec F S1024x1000 .i32) (xs0 xs1 xs2 : Vec F S1x1 .f32) :
    out0_C_3 c i arg2 harg2 arg3 harg3 arg4 harg4 arg5 harg5 arg6 harg6 arg7 harg7 arg8 harg8 arg9 harg9 hc0 hc1 x0 x1 xs0 xs1 xs2 = cornerOver (k0_pay1 (k0_pay15 x0 x1 xs1)) (k0_pay4 (F := F)) := by
  unfold out0_C_3
  rw [View.read_writes_eq_canon _ _ _ (cover0_C_3 c i arg2 harg2 arg3 harg3 arg4 harg4 arg5 harg5 arg6 harg6 arg7 harg7 arg8 harg8 arg9 harg9 hc0 hc1 x0 x1 xs0 xs1 xs2)]
  unfold kernelRun0_C
  dsimp only
  sl_unfold_words
  rw [View.readCov_unit_zero (S := S1x1) _ hz]
  simp only [View.readAt_eq_ld, harg2.read_unread, harg3.read_unread, harg7.read_unread, harg8.read_unread, harg9.read_unread,
    View.ld_unit_zero (S := S1024x1000) hz, View.ld_unit_zero (S := S1x1) hz]
  rfl

/-- Case C: output block 4 ends as the zero block with its corner entry overwritten by the running sum. -/
theorem out_C_4 (c : Dev nD) (i : grid0.Coords) (arg2 : Memref sig .tc .vmem S1024x1000 .f32) (harg2 : arg2.IsWhole) (arg3 : Memref sig .tc .vmem S1024x1000 .i32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i)
    (x0 : Vec F S1024x1000 .f32) (x1 : Vec F S1024x1000 .i32) (xs0 xs1 xs2 : Vec F S1x1 .f32) :
    out0_C_4 c i arg2 harg2 arg3 harg3 arg4 harg4 arg5 harg5 arg6 harg6 arg7 harg7 arg8 harg8 arg9 harg9 hc0 hc1 x0 x1 xs0 xs1 xs2 = cornerOver (k0_pay2 (k0_pay13 x0 x1) xs2) (k0_pay5 (F := F)) := by
  unfold out0_C_4
  rw [View.read_writes_eq_canon _ _ _ (cover0_C_4 c i arg2 harg2 arg3 harg3 arg4 harg4 arg5 harg5 arg6 harg6 arg7 harg7 arg8 harg8 arg9 harg9 hc0 hc1 x0 x1 xs0 xs1 xs2)]
  unfold kernelRun0_C
  dsimp only
  sl_unfold_words
  rw [View.readCov_unit_zero (S := S1x1) _ hz]
  simp only [View.readAt_eq_ld, harg2.read_unread, harg3.read_unread, harg7.read_unread, harg8.read_unread, harg9.read_unread,
    View.ld_unit_zero (S := S1024x1000) hz, View.ld_unit_zero (S := S1x1) hz]
  rfl

end Cert.KernelIdeal.Cases

end
-- ==== Proof.LibColumns.lean ====
/-
  Columns, and the minimum of a matrix's rows kept as a column, on the extended reals.

  A vector of `a` entries stored as a column `[a, 1]` has entry `i` in row `i`; a column `[a, 1]` broadcast to a matrix
  `[a, b]` repeats, along row `p`, the column's entry in row `p`. A minimum reduction of a matrix `[a, b]` over its second
  axis is, in row `p`, the fold of `min` from the accumulator's value over the `b` entries of that row; started from the
  word of `+∞`, which is `⊤`, it is the greatest lower bound of the row, so an extended real is below it exactly when it
  is below every entry of the row. That is how the minimum is used: by its lower bounds, never by its value.
-/
import Idealize.ShloMosaic.Lib.ValueIdx
import Idealize.ShloMosaic.Lib.ValueLayout
import Idealize.ShloMosaic.PureOps.Ideal.Laws

noncomputable section

namespace Cert.Lib.Columns

open Idealize.ShloMosaic Idealize.ShloMosaic.ValueIdx

variable {α : Type}

/-- A vector of `a` entries cast to a column `[a, 1]` reads, at `(i, u)`, entry `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Row `p` of a matrix with column `l` put back on the dropped axis is `(p, l)`. -/
theorem lift_row {a b : ℕ} (h : (⟨2, ![a, b]⟩ : Shape).Reduces [1] (⟨1, ![a]⟩ : Shape)) (p : Fin a)
    (l : Fin ((⟨2, ![a, b]⟩ : Shape).size 1)) : h.lift (ix1 p) l = ix2 p (⟨l.val, l.isLt⟩ : Fin b) := by
  funext c; apply Fin.ext
  match c with
  | ⟨0, _⟩ => rfl
  | ⟨1, _⟩ => rfl

/-- At the ideal values a minimum reduction over ONE axis is, at each reduced index, the fold of `min` from the
    accumulator's value over that axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The f32 word of `+∞` is the top of the extended reals. -/
theorem ofBits_inf_f32 : Ideal.ofBits .f32 0x7F800000#32 = (⊤ : EReal) := by simp [Ideal.ofBits, Ideal.ieee]

/-- The minimum of each row of a matrix, folded from `+∞` and stored as a column, by its lower bounds: an extended
    real is below the entry of row `p` exactly when it is below every entry of that row. -/
theorem le_rowMin_col {a b : ℕ} (v : FVec Ideal ⟨2, ![a, b]⟩ .f32) (h : (⟨2, ![a, b]⟩ : Shape).Reduces [1] (⟨1, ![a]⟩ : Shape))
    (hφ : FKind.Formats .f32) (hacc : (0x7F800000#32 : BitVec 32) = FKind.minimumf.neutral .f32 hφ)
    (hc : (⟨1, ![a]⟩ : Shape).ShapeCasts ⟨2, ![a, 1]⟩) (p : Fin a) (u : Fin 1) (c : EReal) :
    c ≤ (shapeCast ⟨2, ![a, 1]⟩ (multiReduction (F := Ideal) .minimumf [1] ⟨1, ![a]⟩ v 0x7F800000#32 h hφ hacc) hc (ix2 p u) : EReal)
      ↔ ∀ l : Fin b, c ≤ (v (ix2 p l) : EReal) := by
  rw [shapeCast_a_a1_apply, multiReduction_minimumf_single, Ideal.ofBits_def, ofBits_inf_f32, Finset.le_fold_min]
  constructor
  · intro hh l
    have := hh.2 (⟨l.val, l.isLt⟩ : Fin ((⟨2, ![a, b]⟩ : Shape).size 1)) (Finset.mem_univ _)
    rw [Function.comp_apply, lift_row] at this
    exact this
  · intro hh
    refine ⟨le_top, fun l _ => ?_⟩
    rw [Function.comp_apply, lift_row]
    exact hh _

end Cert.Lib.Columns

end
-- ==== Proof.BlockSums.lean ====
/-
  The body's arithmetic on one `[1024, 1000]` block, at the extended reals.

  Each of the body's three sums over a block is taken in two steps — along each row (1000 entries), the 1024 row sums
  kept as a column, then down that column — and lands in a `[1, 1]` value. On the extended reals that value is the double
  sum `∑ r, ∑ c` of the block's entries (`sum_rows_cols`). The summed entries are: the label itself (converted, exactly,
  to a real); `[t = 1] · ly`, where `ly = log (if t = 1 then x else 1 - x)` is the entry's one logarithm; and
  `ly - [t = 1] · ly`. The first two are the terms `lab` and `term1` of the loss, the third is `term0K`.
  The body adds each block sum to the running sum it finds in a scratch buffer.
-/
import proofs.«174111_j72258529788243_2_alg».proof.Proof.Gen.KernelIdeal.Skeleton
import proofs.«174111_j72258529788243_2_alg».proof.Proof.LibColumns
import proofs.«174111_j72258529788243_2_alg».proof.Proof.LossAlgebra
import Idealize.ShloMosaic.Lib.Pipeline.Value
import Idealize.ShloMosaic.Lib.ValueIdx
import Idealize.ShloMosaic.PureOps.Ideal.Laws

noncomputable section

open scoped BigOperators
open Idealize.ShloMosaic Idealize.ShloMosaic.ValueIdx

namespace Cert.KernelIdeal.BlockSums

open Cert.KernelIdeal Cert.KernelIdeal.Gen Cert.LossAlgebra Cert.Lib.Columns

/-- Row sums, kept as a column, summed down the column: the double sum over the block. -/
theorem sum_rows_cols (v : FVec Ideal S1024x1000 .f32) (h1 : S1024x1000.Reduces [1] S1024) (hc1 : S1024.ShapeCasts S1024x1)
    (h0 : S1024x1.Reduces [0] S1) (hc0 : S1.ShapeCasts S1x1) (hφ : FKind.Formats .f32)
    (hacc : (0x00000000#32 : BitVec 32) = FKind.add.neutral .f32 hφ) (j : S1x1.Idx) :
    shapeCast S1x1 (multiReduction (F := Ideal) .add [0] S1
        (shapeCast S1024x1 (multiReduction (F := Ideal) .add [1] S1024 v 0x00000000#32 h1 hφ hacc) hc1)
        0x00000000#32 h0 hφ hacc) hc0 j
      = ∑ r : Fin 1024, ∑ c : Fin 1000, (v (ix2 r c) : EReal) := by
  obtain ⟨p, q, rfl⟩ : ∃ (p : Fin 1) (q : Fin 1), j = ix2 p q := ⟨j 0, j 1, eq_ix2 j⟩
  rw [shapeCast_a_a1_apply, Ideal.multiReduction_add_single]
  show ∑ k : Fin 1024, _ = _
  refine Finset.sum_congr rfl fun r _ => ?_
  have e : h0.lift (ix1 p) r = ix2 r p := by
    funext a; apply Fin.ext
    match a with
    | ⟨0, _⟩ => rfl
    | ⟨1, _⟩ => rfl
  rw [e, shapeCast_a_a1_apply, Ideal.multiReduction_add_single]
  show ∑ l : Fin 1000, _ = _
  refine Finset.sum_congr rfl fun l _ => ?_
  exact congrArg v (lift_row h1 r l)

/-- The block's sum of labels. -/
def blockS (x1 : Vec Ideal S1024x1000 .i32) : EReal := ∑ r : Fin 1024, ∑ c : Fin 1000, lab (x1 (ix2 r c))
/-- The block's sum of the logarithms under the label `1`. -/
def block1 (x0 : Vec Ideal S1024x1000 .f32) (x1 : Vec Ideal S1024x1000 .i32) : EReal :=
  ∑ r : Fin 1024, ∑ c : Fin 1000, term1 (x0 (ix2 r c)) (lab (x1 (ix2 r c)))
/-- The block's sum of the one-logarithm shares of the other sum. -/
def block0 (x0 : Vec Ideal S1024x1000 .f32) (x1 : Vec Ideal S1024x1000 .i32) : EReal :=
  ∑ r : Fin 1024, ∑ c : Fin 1000, term0K (x0 (ix2 r c)) (lab (x1 (ix2 r c)))

/-- The comparison of the converted label with `1.0`, at an entry. -/
theorem mask_apply (x1 : Vec Ideal S1024x1000 .i32) (y : S1024x1000.Idx) :
    k0_pay10 (F := Ideal) x1 y = BitVec.ofBool (decide (lab (x1 y) = 1)) := by
  unfold k0_pay10 k0_pay9
  show Ideal.cmp .oeq (lab (x1 y)) (Ideal.ofBits .f32 0x3F800000#32) = _
  rw [ofBits_one_f32]; rfl

/-- The entry's one logarithm. -/
theorem ly_apply (x0 : Vec Ideal S1024x1000 .f32) (x1 : Vec Ideal S1024x1000 .i32) (y : S1024x1000.Idx) :
    k0_pay11 (F := Ideal) x0 x1 y = Ideal.log (if lab (x1 y) = 1 then x0 y else 1 - x0 y) := by
  unfold k0_pay11
  show Ideal.log (Scalar.select (k0_pay10 (F := Ideal) x1 y) (x0 y) (Ideal.ofBits .f32 0x3F800000#32 - x0 y)) = _
  rw [mask_apply, select_decide, ofBits_one_f32]

/-- The entry's share of the label-1 sum. -/
theorem m1_apply (x0 : Vec Ideal S1024x1000 .f32) (x1 : Vec Ideal S1024x1000 .i32) (y : S1024x1000.Idx) :
    k0_pay12 (F := Ideal) x0 x1 y
      = if lab (x1 y) = 1 then Ideal.log (if lab (x1 y) = 1 then x0 y else 1 - x0 y) else 0 := by
  unfold k0_pay12
  show Scalar.select (k0_pay10 (F := Ideal) x1 y) (k0_pay11 (F := Ideal) x0 x1 y) (Ideal.ofBits .f32 0x00000000#32) = _
  rw [mask_apply, select_decide, ly_apply, Ideal.ofBits_zero_f32]

theorem m1_eq_term1 (x0 : Vec Ideal S1024x1000 .f32) (x1 : Vec Ideal S1024x1000 .i32) (y : S1024x1000.Idx) :
    k0_pay12 (F := Ideal) x0 x1 y = term1 (x0 y) (lab (x1 y)) := by
  rw [m1_apply]; unfold term1
  by_cases h : lab (x1 y) = 1
  · rw [if_pos h, if_pos h, if_pos h]
  · rw [if_neg h, if_neg h]

/-- The label sum after the body: what the scratch held plus the block's sum of labels. -/
theorem labels_step (x1 : Vec Ideal S1024x1000 .i32) (old : Vec Ideal S1x1 .f32) (j : S1x1.Idx) :
    k0_pay14 (F := Ideal) x1 old j = old j + blockS x1 := by
  unfold k0_pay14 k0_pay9
  rw [shapeCast_self]
  refine congrArg (old j + ·) ?_
  exact sum_rows_cols (sitofp (F := Ideal) .f32 x1) _ _ _ _ _ _ j

/-- The label-1 sum after the body. -/
theorem ones_step (x0 : Vec Ideal S1024x1000 .f32) (x1 : Vec Ideal S1024x1000 .i32) (old : Vec Ideal S1x1 .f32) (j : S1x1.Idx) :
    k0_pay1 (F := Ideal) (k0_pay15 (F := Ideal) x0 x1 old) j = old j + block1 x0 x1 := by
  unfold k0_pay1 k0_pay15
  rw [shapeCast_self]
  refine congrArg (old j + ·) ?_
  refine (sum_rows_cols (k0_pay12 (F := Ideal) x0 x1) _ _ _ _ _ _ j).trans ?_
  unfold block1
  refine Finset.sum_congr rfl fun r _ => Finset.sum_congr rfl fun c _ => ?_
  exact m1_eq_term1 x0 x1 (ix2 r c)

/-- The other sum after the body. -/
theorem zeros_step (x0 : Vec Ideal S1024x1000 .f32) (x1 : Vec Ideal S1024x1000 .i32) (old : Vec Ideal S1x1 .f32) (j : S1x1.Idx) :
    k0_pay2 (F := Ideal) (k0_pay13 (F := Ideal) x0 x1) old j = old j + block0 x0 x1 := by
  unfold k0_pay2 k0_pay13
  rw [shapeCast_self]
  refine congrArg (old j + ·) ?_
  refine (sum_rows_cols (subf (k0_pay11 (F := Ideal) x0 x1) (k0_pay12 (F := Ideal) x0 x1)) _ _ _ _ _ _ j).trans ?_
  unfold block0
  refine Finset.sum_congr rfl fun r _ => Finset.sum_congr rfl fun c _ => ?_
  show k0_pay11 (F := Ideal) x0 x1 (ix2 r c) - k0_pay12 (F := Ideal) x0 x1 (ix2 r c) = _
  rw [ly_apply, m1_apply]
  rfl

/-- The zero the body stores into a scratch buffer at a core's first point. -/
theorem zero1_apply (j : S1x1.Idx) : k0_pay6 (F := Ideal) j = 0 ∧ k0_pay7 (F := Ideal) j = 0 ∧ k0_pay8 (F := Ideal) j = 0 := by
  refine ⟨?_, ?_, ?_⟩
  · unfold k0_pay6; rw [shapeCast_self]; exact Ideal.ofBits_zero_f32
  · unfold k0_pay7; rw [shapeCast_self]; exact Ideal.ofBits_zero_f32
  · unfold k0_pay8; rw [shapeCast_self]; exact Ideal.ofBits_zero_f32

/-- The zero block the body stores into an output block at a core's last point. -/
theorem zero8_apply (y : S8x128.Idx) : k0_pay3 (F := Ideal) y = 0 ∧ k0_pay4 (F := Ideal) y = 0 ∧ k0_pay5 (F := Ideal) y = 0 :=
  ⟨Ideal.ofBits_zero_f32, Ideal.ofBits_zero_f32, Ideal.ofBits_zero_f32⟩

end Cert.KernelIdeal.BlockSums

end
-- ==== Proof.KernelAcc.lean ====
/-
  The running sums over the grid, and what the three output arrays end holding.

  The grid has 32 points: two cores of sixteen. Point `t` reads rows `1024 t … 1024 t + 1023` of both arrays and
  adds that block's three sums (`addend`) to the three running sums, which restart from zero at the first point of
  each core's sixteen. So after point `16 q + k` the running sums are the addends of points `16 q … 16 q + k` (`trip_run`,
  by induction on `k`), and after a core's last point, `16 q + 15`, they are that core's totals (`tot`). There, and only
  there, the body writes each output block — zeros with the running sum at the corner — back to rows `8 q … 8 q + 7` of
  its `[16, 128]` array; so after the run entry `(8 q, 0)` of each output array is core `q`'s total.
-/
import proofs.«174111_j72258529788243_2_alg».proof.Proof.Gen.KernelIdeal.Frame
import Idealize.ShloMosaic.Lib.Pipeline.Value
import Idealize.ShloMosaic.Lib.Tactic
import proofs.«174111_j72258529788243_2_alg».proof.Proof.KernelCases
import proofs.«174111_j72258529788243_2_alg».proof.Proof.BlockSums
import Idealize.ShloMosaic.Lib.ValueIdx
set_option maxRecDepth 16384

noncomputable section

open Idealize.ShloMosaic Idealize.ShloMosaic.TcCoe Idealize.SL.Sem

open scoped BigOperators
open Idealize.ShloMosaic.ValueIdx
open Idealize.ShloMosaic.Pipeline (Dat)

namespace Cert.KernelIdeal.Acc

open Cert.KernelIdeal Cert.KernelIdeal.Gen Cert.KernelIdeal.Cases Cert.KernelIdeal.BlockSums Cert.LossAlgebra

variable (m : (ℓ : Loc nD τ sig) → Buf (Elt Ideal) ℓ)

/-- Three extended reals: the label sum, the label-1 logarithm sum, the other logarithm sum. -/
abbrev T3 : Type := EReal × EReal × EReal

/-- The three block sums point `n` adds (zero past the grid, where no point is). -/
def addend (c : Dev nD) (n : ℕ) : T3 :=
  if h : n < cfg0.N then
    (blockS (iblk m c 1 ⟨n, h⟩), block1 (iblk m c 0 ⟨n, h⟩) (iblk m c 1 ⟨n, h⟩), block0 (iblk m c 0 ⟨n, h⟩) (iblk m c 1 ⟨n, h⟩))
  else 0

/-- The three running sums after point `n`, read at the scratch buffers' one entry. -/
def trip (c : Dev nD) (n : ℕ) (h : n < cfg0.N) (j : S1x1.Idx) : T3 :=
  ((outsAt0 m c n h).2.2.2.1 j, (outsAt0 m c n h).2.2.2.2.1 j, (outsAt0 m c n h).2.2.2.2.2 j)

theorem trip_congr (c : Dev nD) (j : S1x1.Idx) (n n' : ℕ) (e : n = n') (h : n < cfg0.N) (h' : n' < cfg0.N) :
    trip m c n h j = trip m c n' h' j := by subst e; rfl

/-- At the first of a core's sixteen points the running sums are the point's block sums, from zero. -/
theorem trip_first (c : Dev nD) (t : Fin cfg0.N) (h0 : t.val % 16 = 0) (j : S1x1.Idx) :
    trip m c t.val t.isLt j = 0 + addend m c t.val := by
  have h1 : ¬t.val % 16 = 15 := by omega
  have e0 : (outsAt0 m c t.val t.isLt).2.2.2.1 = k0_pay14 (F := Ideal) (iblk m c 1 t) (k0_pay6 (F := Ideal)) := by
    rw [outsAt0_A m c t h0 h1]
    exact scratch_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t)
  have e1 : (outsAt0 m c t.val t.isLt).2.2.2.2.1 = k0_pay1 (F := Ideal) (k0_pay15 (F := Ideal) (iblk m c 0 t) (iblk m c 1 t) (k0_pay7 (F := Ideal))) := by
    rw [outsAt0_A m c t h0 h1]
    exact scratch_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t)
  have e2 : (outsAt0 m c t.val t.isLt).2.2.2.2.2 = k0_pay2 (F := Ideal) (k0_pay13 (F := Ideal) (iblk m c 0 t) (iblk m c 1 t)) (k0_pay8 (F := Ideal)) := by
    rw [outsAt0_A m c t h0 h1]
    exact scratch_A_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t)
  unfold trip addend
  rw [dif_pos t.isLt, e0, e1, e2, labels_step, ones_step, zeros_step, (zero1_apply j).1, (zero1_apply j).2.1, (zero1_apply j).2.2]
  rfl

/-- At every other point they are what the point before left plus the point's block sums. -/
theorem trip_next (c : Dev nD) (t : Fin cfg0.N) (h0 : ¬t.val % 16 = 0) (j : S1x1.Idx) :
    trip m c t.val t.isLt j = trip m c (t.val - 1) (Nat.lt_of_le_of_lt (Nat.sub_le _ _) t.isLt) j + addend m c t.val := by
  by_cases h1 : t.val % 16 = 15
  ·
    have e0 : (outsAt0 m c t.val t.isLt).2.2.2.1 = k0_pay14 (F := Ideal) (iblk m c 1 t) (outsAt0 m c (t.val - 1) (Nat.lt_of_le_of_lt (Nat.sub_le _ _) t.isLt)).2.2.2.1 := by
      rw [outsAt0_C m c t h0 h1]
      exact scratch_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2
    have e1 : (outsAt0 m c t.val t.isLt).2.2.2.2.1 = k0_pay1 (F := Ideal) (k0_pay15 (F := Ideal) (iblk m c 0 t) (iblk m c 1 t) (outsAt0 m c (t.val - 1) (Nat.lt_of_le_of_lt (Nat.sub_le _ _) t.isLt)).2.2.2.2.1) := by
      rw [outsAt0_C m c t h0 h1]
      exact scratch_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2
    have e2 : (outsAt0 m c t.val t.isLt).2.2.2.2.2 = k0_pay2 (F := Ideal) (k0_pay13 (F := Ideal) (iblk m c 0 t) (iblk m c 1 t)) (outsAt0 m c (t.val - 1) (Nat.lt_of_le_of_lt (Nat.sub_le _ _) t.isLt)).2.2.2.2.2 := by
      rw [outsAt0_C m c t h0 h1]
      exact scratch_C_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2
    unfold trip addend
    rw [dif_pos t.isLt, e0, e1, e2, labels_step, ones_step, zeros_step]
    rfl
  ·
    have e0 : (outsAt0 m c t.val t.isLt).2.2.2.1 = k0_pay14 (F := Ideal) (iblk m c 1 t) (outsAt0 m c (t.val - 1) (Nat.lt_of_le_of_lt (Nat.sub_le _ _) t.isLt)).2.2.2.1 := by
      rw [outsAt0_B m c t h0 h1]
      exact scratch_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2
    have e1 : (outsAt0 m c t.val t.isLt).2.2.2.2.1 = k0_pay1 (F := Ideal) (k0_pay15 (F := Ideal) (iblk m c 0 t) (iblk m c 1 t) (outsAt0 m c (t.val - 1) (Nat.lt_of_le_of_lt (Nat.sub_le _ _) t.isLt)).2.2.2.2.1) := by
      rw [outsAt0_B m c t h0 h1]
      exact scratch_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2
    have e2 : (outsAt0 m c t.val t.isLt).2.2.2.2.2 = k0_pay2 (F := Ideal) (k0_pay13 (F := Ideal) (iblk m c 0 t) (iblk m c 1 t)) (outsAt0 m c (t.val - 1) (Nat.lt_of_le_of_lt (Nat.sub_le _ _) t.isLt)).2.2.2.2.2 := by
      rw [outsAt0_B m c t h0 h1]
      exact scratch_B_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2
    unfold trip addend
    rw [dif_pos t.isLt, e0, e1, e2, labels_step, ones_step, zeros_step]
    rfl

/-- The running sums after point `16 q + k`: the block sums of points `16 q … 16 q + k`. -/
theorem trip_run (c : Dev nD) (q : ℕ) : ∀ (k : ℕ) (_ : k < 16) (h : 16 * q + k < cfg0.N) (j : S1x1.Idx),
    trip m c (16 * q + k) h j = ∑ s ∈ Finset.range (k + 1), addend m c (16 * q + s)
  | 0, _, h, j => by
    have := trip_first m c ⟨16 * q + 0, h⟩ (by show (16 * q + 0) % 16 = 0; omega) j
    rw [Finset.sum_range_one]
    exact this.trans (zero_add _)
  | k + 1, hk, h, j => by
    have hn := trip_next m c ⟨16 * q + (k + 1), h⟩ (by show ¬(16 * q + (k + 1)) % 16 = 0; omega) j
    rw [Finset.sum_range_succ, ← trip_run c q k (by omega) (by omega) j]
    exact hn

/-- Core `q`'s three totals. -/
def tot (c : Dev nD) (q : ℕ) : T3 := ∑ s ∈ Finset.range 16, addend m c (16 * q + s)

/-- After a core's last point the running sums are the core's totals. -/
theorem trip_last (c : Dev nD) (t : Fin cfg0.N) (h1 : t.val % 16 = 15) (j : S1x1.Idx) :
    trip m c t.val t.isLt j = tot m c (t.val / 16) := by
  have ht : t.val = 16 * (t.val / 16) + 15 := by omega
  have hlt : 16 * (t.val / 16) + 15 < cfg0.N := by rw [← ht]; exact t.isLt
  rw [trip_congr m c j _ _ ht t.isLt hlt]
  exact trip_run m c (t.val / 16) 15 (by norm_num) hlt j

/-- An `[8, 128]` block written whole and then overwritten at its corner, read at an entry. -/
theorem cornerOver_apply (a : Vec Ideal S1x1 .f32) (z : Vec Ideal S8x128 .f32) (y : S8x128.Idx) :
    cornerOver a z y = if (y 0).val = 0 ∧ (y 1).val = 0 then a (ix2 0 0) else z y := by
  unfold cornerOver
  by_cases hy : (y 0).val = 0 ∧ (y 1).val = 0
  · rw [if_pos hy]
    have e : y = (Rect.unit (s := S8x128) ![0, 0] S1x1.size inb_S8x128_S1x1_0_0).emb (ix2 0 0) := by
      funext b; apply Fin.ext
      match b with
      | ⟨0, _⟩ => exact hy.1
      | ⟨1, _⟩ => exact hy.2
    rw [e, View.canon_cons_emb]
  · rw [if_neg hy]
    rw [View.canon_cons_of_not_mem]
    · rw [View.canon_unit_zero Cases.hz]
    · show y ∉ (Rect.unit (s := S8x128) ![0, 0] S1x1.size inb_S8x128_S1x1_0_0).set
      rw [Rect.mem_set_unit]
      intro hmem
      apply hy
      have m0 := hmem 0
      have m1 := hmem 1
      have s0 : S1x1.size (0 : Fin 2) = 1 := rfl
      have s1 : S1x1.size (1 : Fin 2) = 1 := rfl
      have o0 : (![0, 0] : Fin 2 → Nat) 0 = 0 := rfl
      have o1 : (![0, 0] : Fin 2 → Nat) 1 = 0 := rfl
      rw [s0, o0] at m0
      rw [s1, o1] at m1
      exact ⟨by omega, by omega⟩

/-- An output array after the run: core `q`'s total (its component `k`) at entry `(8 q, 0)`, zero elsewhere. -/
def outArr (c : Dev nD) (k : T3 → EReal) : S16x128.Idx → EReal := fun i =>
  if (i 0).val % 8 = 0 ∧ (i 1).val = 0 then k (tot m c ((i 0).val / 8)) else 0

/-! ### Output 0 -/

/-- At a core's last point the body leaves in output block 0 zeros, with the running sum at the corner. -/
theorem out2_last (c : Dev nD) (t : Fin cfg0.N) (h0 : ¬t.val % 16 = 0) (h1 : t.val % 16 = 15) :
    (outsAt0 m c t.val t.isLt).1 = cornerOver ((outsAt0 m c t.val t.isLt).2.2.2.1) (k0_pay3 (F := Ideal)) := by
  rw [outsAt0_C m c t h0 h1, scratch_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2]
  exact out_C_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2

theorem idx2 : ∀ t : Fin cfg0.N, win0_2.index t (0 : Fin 2) = t.val / 16 ∧ win0_2.index t (1 : Fin 2) = 0 :=
  (by decide +kernel : ∀ t : Fin grid0.N, win0_2.index t (0 : Fin 2) = t.val / 16 ∧ win0_2.index t (1 : Fin 2) = 0)

/-- What a core's last point writes back is its block of the array `outArr`. -/
theorem flushed2_eq (c : Dev nD) (t : Fin cfg0.N) (hf : (cfg0.win 2).flush t = true) :
    (dats m 0 c).flushed 2 t = ((cfg0.win 2).blk t).view.read (Elt Ideal) (outArr m c (fun x => x.1)) := by
  have h1 : t.val % 16 = 15 := (flush0_2 t).mp hf
  have h0 : ¬t.val % 16 = 0 := by omega
  show (cfg0.win 2).cut (grid0.coords t) ((dats m 0 c).after 2 t) = _
  rw [after0_2, out2_last m c t h0 h1]
  funext y
  show cornerOver (F := Ideal) _ _ y = outArr m c (fun x => x.1) (((cfg0.win 2).blk t).view.emb y)
  rw [cornerOver_apply, (zero8_apply y).1]
  unfold outArr
  obtain ⟨i0, i1⟩ := idx2 t
  have e0 : ((((cfg0.win 2).blk t).view.emb y) 0).val = win0_2.index t (0 : Fin 2) * 8 + 1 * (y 0).val := rfl
  have e1 : ((((cfg0.win 2).blk t).view.emb y) 1).val = win0_2.index t (1 : Fin 2) * 128 + 1 * (y 1).val := rfl
  have hy0 : (y 0).val < 8 := (y 0).isLt
  have hy1 : (y 1).val < 128 := (y 1).isLt
  by_cases hy : (y 0).val = 0 ∧ (y 1).val = 0
  · have hc : ((((cfg0.win 2).blk t).view.emb y) 0).val % 8 = 0 ∧ ((((cfg0.win 2).blk t).view.emb y) 1).val = 0 := by
      rw [e0, e1, i0, i1]; omega
    have hq : ((((cfg0.win 2).blk t).view.emb y) 0).val / 8 = t.val / 16 := by rw [e0, i0]; omega
    rw [if_pos hy, if_pos hc, hq]
    exact congrArg Prod.fst (trip_last m c t h1 (ix2 0 0))
  · have hc : ¬(((((cfg0.win 2).blk t).view.emb y) 0).val % 8 = 0 ∧ ((((cfg0.win 2).blk t).view.emb y) 1).val = 0) := by
      rw [e0, e1, i0, i1]; omega
    rw [if_neg hy, if_neg hc]

/-- An index of the array is in point `t`'s block iff each coordinate is in the block's range on its axis. -/
theorem mem_blk2 (t : Fin cfg0.N) (i : S16x128.Idx) :
    i ∈ ((cfg0.win 2).blk t).view.set ↔ ∀ a : Fin 2, win0_2.index t a * S8x128.size a ≤ (i a).val ∧ (i a).val < win0_2.index t a * S8x128.size a + S8x128.size a := by
  show i ∈ ((View.whole main_v0_0).slice (win0_2.rect t)).set ↔ _
  rw [View.set_slice_whole, Rect.mem_set_unit]
  exact Iff.rfl

/-- After the run, entry `(8 q, 0)` of output array 0 is core `q`'s total. -/
theorem arr2_at (c : Dev nD) (q : Fin 2) :
    (dats m 0 c).arrAt 2 cfg0.N (ix2 (⟨8 * q.val, by have := q.isLt; omega⟩ : Fin 16) (0 : Fin 128)) = (fun x => x.1) (tot m c q.val) := by
  have hN : cfg0.N = 32 := N_0
  have hq := q.isLt
  have ht : 16 * q.val + 15 < cfg0.N := by omega
  have hf : (cfg0.win 2).flush ⟨16 * q.val + 15, ht⟩ = true := (flush0_2 _).mpr (by show (16 * q.val + 15) % 16 = 15; omega)
  obtain ⟨i0, i1⟩ := idx2 ⟨16 * q.val + 15, ht⟩
  have hi : (ix2 (⟨8 * q.val, by omega⟩ : Fin 16) (0 : Fin 128) : S16x128.Idx) ∈ ((cfg0.win 2).blk ⟨16 * q.val + 15, ht⟩).view.set := by
    rw [mem_blk2]
    intro a
    match a with
    | ⟨0, _⟩ => show win0_2.index ⟨16 * q.val + 15, ht⟩ (0 : Fin 2) * 8 ≤ 8 * q.val ∧ 8 * q.val < win0_2.index ⟨16 * q.val + 15, ht⟩ (0 : Fin 2) * 8 + 8
                rw [i0]; show (16 * q.val + 15) / 16 * 8 ≤ 8 * q.val ∧ 8 * q.val < (16 * q.val + 15) / 16 * 8 + 8; omega
    | ⟨1, _⟩ => show win0_2.index ⟨16 * q.val + 15, ht⟩ (1 : Fin 2) * 128 ≤ 0 ∧ 0 < win0_2.index ⟨16 * q.val + 15, ht⟩ (1 : Fin 2) * 128 + 128
                rw [i1]; omega
  rw [(dats m 0 c).arrAt_apply_of_mem 2 (outArr m c (fun x => x.1)) (fun t hf => flushed2_eq m c t hf) cfg0.N ⟨16 * q.val + 15, ht⟩ _ ht hf hi]
  unfold outArr
  have ha : ((ix2 (⟨8 * q.val, by omega⟩ : Fin 16) (0 : Fin 128) : S16x128.Idx) 0).val % 8 = 0 ∧ ((ix2 (⟨8 * q.val, by omega⟩ : Fin 16) (0 : Fin 128) : S16x128.Idx) 1).val = 0 := by
    refine ⟨?_, rfl⟩; show 8 * q.val % 8 = 0; omega
  have hb : ((ix2 (⟨8 * q.val, by omega⟩ : Fin 16) (0 : Fin 128) : S16x128.Idx) 0).val / 8 = q.val := by
    show 8 * q.val / 8 = q.val; omega
  rw [if_pos ha, hb]

/-! ### Output 1 -/

/-- At a core's last point the body leaves in output block 1 zeros, with the running sum at the corner. -/
theorem out3_last (c : Dev nD) (t : Fin cfg0.N) (h0 : ¬t.val % 16 = 0) (h1 : t.val % 16 = 15) :
    (outsAt0 m c t.val t.isLt).2.1 = cornerOver ((outsAt0 m c t.val t.isLt).2.2.2.2.1) (k0_pay4 (F := Ideal)) := by
  rw [outsAt0_C m c t h0 h1, scratch_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2]
  exact out_C_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2

theorem idx3 : ∀ t : Fin cfg0.N, win0_3.index t (0 : Fin 2) = t.val / 16 ∧ win0_3.index t (1 : Fin 2) = 0 :=
  (by decide +kernel : ∀ t : Fin grid0.N, win0_3.index t (0 : Fin 2) = t.val / 16 ∧ win0_3.index t (1 : Fin 2) = 0)

/-- What a core's last point writes back is its block of the array `outArr`. -/
theorem flushed3_eq (c : Dev nD) (t : Fin cfg0.N) (hf : (cfg0.win 3).flush t = true) :
    (dats m 0 c).flushed 3 t = ((cfg0.win 3).blk t).view.read (Elt Ideal) (outArr m c (fun x => x.2.1)) := by
  have h1 : t.val % 16 = 15 := (flush0_3 t).mp hf
  have h0 : ¬t.val % 16 = 0 := by omega
  show (cfg0.win 3).cut (grid0.coords t) ((dats m 0 c).after 3 t) = _
  rw [after0_3, out3_last m c t h0 h1]
  funext y
  show cornerOver (F := Ideal) _ _ y = outArr m c (fun x => x.2.1) (((cfg0.win 3).blk t).view.emb y)
  rw [cornerOver_apply, (zero8_apply y).2.1]
  unfold outArr
  obtain ⟨i0, i1⟩ := idx3 t
  have e0 : ((((cfg0.win 3).blk t).view.emb y) 0).val = win0_3.index t (0 : Fin 2) * 8 + 1 * (y 0).val := rfl
  have e1 : ((((cfg0.win 3).blk t).view.emb y) 1).val = win0_3.index t (1 : Fin 2) * 128 + 1 * (y 1).val := rfl
  have hy0 : (y 0).val < 8 := (y 0).isLt
  have hy1 : (y 1).val < 128 := (y 1).isLt
  by_cases hy : (y 0).val = 0 ∧ (y 1).val = 0
  · have hc : ((((cfg0.win 3).blk t).view.emb y) 0).val % 8 = 0 ∧ ((((cfg0.win 3).blk t).view.emb y) 1).val = 0 := by
      rw [e0, e1, i0, i1]; omega
    have hq : ((((cfg0.win 3).blk t).view.emb y) 0).val / 8 = t.val / 16 := by rw [e0, i0]; omega
    rw [if_pos hy, if_pos hc, hq]
    exact congrArg (fun x : T3 => x.2.1) (trip_last m c t h1 (ix2 0 0))
  · have hc : ¬(((((cfg0.win 3).blk t).view.emb y) 0).val % 8 = 0 ∧ ((((cfg0.win 3).blk t).view.emb y) 1).val = 0) := by
      rw [e0, e1, i0, i1]; omega
    rw [if_neg hy, if_neg hc]

/-- An index of the array is in point `t`'s block iff each coordinate is in the block's range on its axis. -/
theorem mem_blk3 (t : Fin cfg0.N) (i : S16x128.Idx) :
    i ∈ ((cfg0.win 3).blk t).view.set ↔ ∀ a : Fin 2, win0_3.index t a * S8x128.size a ≤ (i a).val ∧ (i a).val < win0_3.index t a * S8x128.size a + S8x128.size a := by
  show i ∈ ((View.whole main_v0_1).slice (win0_3.rect t)).set ↔ _
  rw [View.set_slice_whole, Rect.mem_set_unit]
  exact Iff.rfl

/-- After the run, entry `(8 q, 0)` of output array 1 is core `q`'s total. -/
theorem arr3_at (c : Dev nD) (q : Fin 2) :
    (dats m 0 c).arrAt 3 cfg0.N (ix2 (⟨8 * q.val, by have := q.isLt; omega⟩ : Fin 16) (0 : Fin 128)) = (fun x => x.2.1) (tot m c q.val) := by
  have hN : cfg0.N = 32 := N_0
  have hq := q.isLt
  have ht : 16 * q.val + 15 < cfg0.N := by omega
  have hf : (cfg0.win 3).flush ⟨16 * q.val + 15, ht⟩ = true := (flush0_3 _).mpr (by show (16 * q.val + 15) % 16 = 15; omega)
  obtain ⟨i0, i1⟩ := idx3 ⟨16 * q.val + 15, ht⟩
  have hi : (ix2 (⟨8 * q.val, by omega⟩ : Fin 16) (0 : Fin 128) : S16x128.Idx) ∈ ((cfg0.win 3).blk ⟨16 * q.val + 15, ht⟩).view.set := by
    rw [mem_blk3]
    intro a
    match a with
    | ⟨0, _⟩ => show win0_3.index ⟨16 * q.val + 15, ht⟩ (0 : Fin 2) * 8 ≤ 8 * q.val ∧ 8 * q.val < win0_3.index ⟨16 * q.val + 15, ht⟩ (0 : Fin 2) * 8 + 8
                rw [i0]; show (16 * q.val + 15) / 16 * 8 ≤ 8 * q.val ∧ 8 * q.val < (16 * q.val + 15) / 16 * 8 + 8; omega
    | ⟨1, _⟩ => show win0_3.index ⟨16 * q.val + 15, ht⟩ (1 : Fin 2) * 128 ≤ 0 ∧ 0 < win0_3.index ⟨16 * q.val + 15, ht⟩ (1 : Fin 2) * 128 + 128
                rw [i1]; omega
  rw [(dats m 0 c).arrAt_apply_of_mem 3 (outArr m c (fun x => x.2.1)) (fun t hf => flushed3_eq m c t hf) cfg0.N ⟨16 * q.val + 15, ht⟩ _ ht hf hi]
  unfold outArr
  have ha : ((ix2 (⟨8 * q.val, by omega⟩ : Fin 16) (0 : Fin 128) : S16x128.Idx) 0).val % 8 = 0 ∧ ((ix2 (⟨8 * q.val, by omega⟩ : Fin 16) (0 : Fin 128) : S16x128.Idx) 1).val = 0 := by
    refine ⟨?_, rfl⟩; show 8 * q.val % 8 = 0; omega
  have hb : ((ix2 (⟨8 * q.val, by omega⟩ : Fin 16) (0 : Fin 128) : S16x128.Idx) 0).val / 8 = q.val := by
    show 8 * q.val / 8 = q.val; omega
  rw [if_pos ha, hb]

/-! ### Output 2 -/

/-- At a core's last point the body leaves in output block 2 zeros, with the running sum at the corner. -/
theorem out4_last (c : Dev nD) (t : Fin cfg0.N) (h0 : ¬t.val % 16 = 0) (h1 : t.val % 16 = 15) :
    (outsAt0 m c t.val t.isLt).2.2.1 = cornerOver ((outsAt0 m c t.val t.isLt).2.2.2.2.2) (k0_pay5 (F := Ideal)) := by
  rw [outsAt0_C m c t h0 h1, scratch_C_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2]
  exact out_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2

theorem idx4 : ∀ t : Fin cfg0.N, win0_4.index t (0 : Fin 2) = t.val / 16 ∧ win0_4.index t (1 : Fin 2) = 0 :=
  (by decide +kernel : ∀ t : Fin grid0.N, win0_4.index t (0 : Fin 2) = t.val / 16 ∧ win0_4.index t (1 : Fin 2) = 0)

/-- What a core's last point writes back is its block of the array `outArr`. -/
theorem flushed4_eq (c : Dev nD) (t : Fin cfg0.N) (hf : (cfg0.win 4).flush t = true) :
    (dats m 0 c).flushed 4 t = ((cfg0.win 4).blk t).view.read (Elt Ideal) (outArr m c (fun x => x.2.2)) := by
  have h1 : t.val % 16 = 15 := (flush0_4 t).mp hf
  have h0 : ¬t.val % 16 = 0 := by omega
  show (cfg0.win 4).cut (grid0.coords t) ((dats m 0 c).after 4 t) = _
  rw [after0_4, out4_last m c t h0 h1]
  funext y
  show cornerOver (F := Ideal) _ _ y = outArr m c (fun x => x.2.2) (((cfg0.win 4).blk t).view.emb y)
  rw [cornerOver_apply, (zero8_apply y).2.2]
  unfold outArr
  obtain ⟨i0, i1⟩ := idx4 t
  have e0 : ((((cfg0.win 4).blk t).view.emb y) 0).val = win0_4.index t (0 : Fin 2) * 8 + 1 * (y 0).val := rfl
  have e1 : ((((cfg0.win 4).blk t).view.emb y) 1).val = win0_4.index t (1 : Fin 2) * 128 + 1 * (y 1).val := rfl
  have hy0 : (y 0).val < 8 := (y 0).isLt
  have hy1 : (y 1).val < 128 := (y 1).isLt
  by_cases hy : (y 0).val = 0 ∧ (y 1).val = 0
  · have hc : ((((cfg0.win 4).blk t).view.emb y) 0).val % 8 = 0 ∧ ((((cfg0.win 4).blk t).view.emb y) 1).val = 0 := by
      rw [e0, e1, i0, i1]; omega
    have hq : ((((cfg0.win 4).blk t).view.emb y) 0).val / 8 = t.val / 16 := by rw [e0, i0]; omega
    rw [if_pos hy, if_pos hc, hq]
    exact congrArg (fun x : T3 => x.2.2) (trip_last m c t h1 (ix2 0 0))
  · have hc : ¬(((((cfg0.win 4).blk t).view.emb y) 0).val % 8 = 0 ∧ ((((cfg0.win 4).blk t).view.emb y) 1).val = 0) := by
      rw [e0, e1, i0, i1]; omega
    rw [if_neg hy, if_neg hc]

/-- An index of the array is in point `t`'s block iff each coordinate is in the block's range on its axis. -/
theorem mem_blk4 (t : Fin cfg0.N) (i : S16x128.Idx) :
    i ∈ ((cfg0.win 4).blk t).view.set ↔ ∀ a : Fin 2, win0_4.index t a * S8x128.size a ≤ (i a).val ∧ (i a).val < win0_4.index t a * S8x128.size a + S8x128.size a := by
  show i ∈ ((View.whole main_v0_2).slice (win0_4.rect t)).set ↔ _
  rw [View.set_slice_whole, Rect.mem_set_unit]
  exact Iff.rfl

/-- After the run, entry `(8 q, 0)` of output array 2 is core `q`'s total. -/
theorem arr4_at (c : Dev nD) (q : Fin 2) :
    (dats m 0 c).arrAt 4 cfg0.N (ix2 (⟨8 * q.val, by have := q.isLt; omega⟩ : Fin 16) (0 : Fin 128)) = (fun x => x.2.2) (tot m c q.val) := by
  have hN : cfg0.N = 32 := N_0
  have hq := q.isLt
  have ht : 16 * q.val + 15 < cfg0.N := by omega
  have hf : (cfg0.win 4).flush ⟨16 * q.val + 15, ht⟩ = true := (flush0_4 _).mpr (by show (16 * q.val + 15) % 16 = 15; omega)
  obtain ⟨i0, i1⟩ := idx4 ⟨16 * q.val + 15, ht⟩
  have hi : (ix2 (⟨8 * q.val, by omega⟩ : Fin 16) (0 : Fin 128) : S16x128.Idx) ∈ ((cfg0.win 4).blk ⟨16 * q.val + 15, ht⟩).view.set := by
    rw [mem_blk4]
    intro a
    match a with
    | ⟨0, _⟩ => show win0_4.index ⟨16 * q.val + 15, ht⟩ (0 : Fin 2) * 8 ≤ 8 * q.val ∧ 8 * q.val < win0_4.index ⟨16 * q.val + 15, ht⟩ (0 : Fin 2) * 8 + 8
                rw [i0]; show (16 * q.val + 15) / 16 * 8 ≤ 8 * q.val ∧ 8 * q.val < (16 * q.val + 15) / 16 * 8 + 8; omega
    | ⟨1, _⟩ => show win0_4.index ⟨16 * q.val + 15, ht⟩ (1 : Fin 2) * 128 ≤ 0 ∧ 0 < win0_4.index ⟨16 * q.val + 15, ht⟩ (1 : Fin 2) * 128 + 128
                rw [i1]; omega
  rw [(dats m 0 c).arrAt_apply_of_mem 4 (outArr m c (fun x => x.2.2)) (fun t hf => flushed4_eq m c t hf) cfg0.N ⟨16 * q.val + 15, ht⟩ _ ht hf hi]
  unfold outArr
  have ha : ((ix2 (⟨8 * q.val, by omega⟩ : Fin 16) (0 : Fin 128) : S16x128.Idx) 0).val % 8 = 0 ∧ ((ix2 (⟨8 * q.val, by omega⟩ : Fin 16) (0 : Fin 128) : S16x128.Idx) 1).val = 0 := by
    refine ⟨?_, rfl⟩; show 8 * q.val % 8 = 0; omega
  have hb : ((ix2 (⟨8 * q.val, by omega⟩ : Fin 16) (0 : Fin 128) : S16x128.Idx) 0).val / 8 = q.val := by
    show 8 * q.val / 8 = q.val; omega
  rw [if_pos ha, hb]

end Cert.KernelIdeal.Acc

end
-- ==== Proof.KernelTail.lean ====
/-
  From the three output arrays to the kernel's result.

  After the region the host reads entries `(0, 0)` and `(8, 0)` of each output array — the two cores' totals —, adds
  them, and applies the closing arithmetic: the kernel's result is the loss closed over the two cores' added totals.
-/
import proofs.«174111_j72258529788243_2_alg».proof.Proof.Gen.KernelIdeal.Frame
import Idealize.ShloMosaic.Lib.Pipeline.Value
import Idealize.ShloMosaic.Lib.Tactic
import proofs.«174111_j72258529788243_2_alg».proof.Proof.KernelAcc
import proofs.«174111_j72258529788243_2_alg».proof.Proof.SumShapes
import Idealize.ShloMosaic.Lib.StableHlo.Run
import Idealize.ShloMosaic.Lib.ValueIdx
set_option maxRecDepth 16384

noncomputable section

open Idealize.ShloMosaic Idealize.ShloMosaic.TcCoe Idealize.SL.Sem

open scoped BigOperators
open Idealize.ShloMosaic.ValueIdx
open Idealize.ShloMosaic.Pipeline (Dat)

namespace Cert.KernelIdeal.Tail

open Cert.KernelIdeal Cert.KernelIdeal.Gen Cert.KernelIdeal.Cases Cert.KernelIdeal.BlockSums Cert.KernelIdeal.Acc
open Cert.LossAlgebra Cert.SumShapes

variable (m : (ℓ : Loc nD τ sig) → Buf (Elt Ideal) ℓ) (ρ : Dev nD → PrngReg)

/-- The host's quotient and negation of scalars, at the one index. -/
theorem hdiv_at (a b : FVec Ideal S_ .f32) (j : S_.Idx) : Host.divf a b j = Ideal.div (a j) (b j) := rfl
theorem hneg_at (a : FVec Ideal S_ .f32) (j : S_.Idx) : Host.negf a j = -(a j) := rfl

/-- The one-entry slice at `(r, 0)` of a `[16, 128]` array, reshaped to a scalar, is entry `(r, 0)`. -/
theorem pick (A : S16x128.Idx → EReal) (r : Fin 16) (h : S16x128.Slices ![r.val, 0] S1x1) (hc : S1x1.ShapeCasts S_) (j : S_.Idx) :
    shapeCast S_ (extractStridedSlice S1x1 ![r.val, 0] A h) hc j = A (ix2 r (0 : Fin 128)) := by
  have hk : (S1x1.rowMajor (ix2 (0 : Fin 1) (0 : Fin 1))).val = (S_.rowMajor j).val := by
    have h1 := (S_.rowMajor j).isLt
    have hn : S_.numel = 1 := by decide
    rw [Shape.rowMajor_val_two]
    show 0 * _ + 0 = _
    omega
  rw [shapeCast_apply _ hc j (ix2 (0 : Fin 1) (0 : Fin 1)) hk]
  exact extractStridedSlice_apply _ A h _ _ (fun a => by
    match a with
    | ⟨0, _⟩ => show r.val = r.val + 0; omega
    | ⟨1, _⟩ => show 0 = 0 + 0; rfl)

/-- The two cores' totals, added. -/
def kTot (c : Dev nD) : T3 := tot m c 0 + tot m c 1

/-- The kernel's result buffer after the host's lines: the closing arithmetic on the added totals. -/
theorem tail_eq (c : Dev nD) :
    Pipeline.afterTail₀ cfgs (dats m) 0 (V0 m) [hostOps1] c main_v24
      = fun _ => closing (kTot m c).1 (kTot m c).2.1 (kTot m c).2.2 := by
  unfold Pipeline.afterTail₀
  simp only [List.flatten_cons, List.flatten_nil, List.append_nil]
  after_results_simp
  rw [Pipeline.withArrays_arr spec0 launch0.win.arr_inj c _ _ 2, Pipeline.withArrays_arr spec0 launch0.win.arr_inj c _ _ 3,
    Pipeline.withArrays_arr spec0 launch0.win.arr_inj c _ _ 4]
  funext j
  simp only [hdiv_at, hneg_at, ValueIdx.subf_apply, ValueIdx.mulf_apply, ValueIdx.addf_apply, ValueIdx.constant_apply]
  have p20 : shapeCast main_v2.ty.shape (extractStridedSlice S1x1 ![0, 0] ((dats m 0 c).arrAt 2 (cfgs 0).N) slices_S16x128_S1x1_0_0) shapeCasts_S1x1_S_ j = (tot m c 0).1 :=
    (pick _ 0 _ _ j).trans (arr2_at m c 0)
  have p28 : shapeCast main_v4.ty.shape (extractStridedSlice S1x1 ![8, 0] ((dats m 0 c).arrAt 2 (cfgs 0).N) slices_S16x128_S1x1_8_0) shapeCasts_S1x1_S_ j = (tot m c 1).1 :=
    (pick _ 8 _ _ j).trans (arr2_at m c 1)
  have p30 : shapeCast main_v7.ty.shape (extractStridedSlice S1x1 ![0, 0] ((dats m 0 c).arrAt 3 (cfgs 0).N) slices_S16x128_S1x1_0_0) shapeCasts_S1x1_S_ j = (tot m c 0).2.1 :=
    (pick _ 0 _ _ j).trans (arr3_at m c 0)
  have p38 : shapeCast main_v9.ty.shape (extractStridedSlice S1x1 ![8, 0] ((dats m 0 c).arrAt 3 (cfgs 0).N) slices_S16x128_S1x1_8_0) shapeCasts_S1x1_S_ j = (tot m c 1).2.1 :=
    (pick _ 8 _ _ j).trans (arr3_at m c 1)
  have p40 : shapeCast main_v12.ty.shape (extractStridedSlice S1x1 ![0, 0] ((dats m 0 c).arrAt 4 (cfgs 0).N) slices_S16x128_S1x1_0_0) shapeCasts_S1x1_S_ j = (tot m c 0).2.2 :=
    (pick _ 0 _ _ j).trans (arr4_at m c 0)
  have p48 : shapeCast main_v14.ty.shape (extractStridedSlice S1x1 ![8, 0] ((dats m 0 c).arrAt 4 (cfgs 0).N) slices_S16x128_S1x1_8_0) shapeCasts_S1x1_S_ j = (tot m c 1).2.2 :=
    (pick _ 8 _ _ j).trans (arr4_at m c 1)
  rw [p20, p28, p30, p38, p40, p48, ofBits_nTot, ofBits_one_f32]
  rfl

end Cert.KernelIdeal.Tail

end
-- ==== Proof.KernelTotals.lean ====
/-
  The kernel's totals as totals over the argument arrays, and the kernel's run read.

  A core's total is the sum over its sixteen points of the points' block sums; the two cores' sixteen points are the
  32 blocks of 1024 rows, and block `b`'s row `r'` is row `1024 b + r'` of the argument arrays. So the three added
  totals are the sums over the whole `[32768, 1000]` arrays of the labels, of the label-1 logarithms, and of the
  one-logarithm shares.
-/
import proofs.«174111_j72258529788243_2_alg».proof.Proof.Gen.KernelIdeal.Frame
import Idealize.ShloMosaic.Lib.Pipeline.Value
import Idealize.ShloMosaic.Lib.Tactic
import proofs.«174111_j72258529788243_2_alg».proof.Proof.KernelTail
import proofs.«174111_j72258529788243_2_alg».proof.Proof.SumShapes
import Idealize.ShloMosaic.Lib.StableHlo.Run
import Idealize.ShloMosaic.Lib.ValueIdx
set_option maxRecDepth 16384

noncomputable section

open Idealize.ShloMosaic Idealize.ShloMosaic.TcCoe Idealize.SL.Sem

open scoped BigOperators
open Idealize.ShloMosaic.ValueIdx
open Idealize.ShloMosaic.Pipeline (Dat)

namespace Cert.KernelIdeal.Tail

open Cert.KernelIdeal Cert.KernelIdeal.Gen Cert.KernelIdeal.Cases Cert.KernelIdeal.BlockSums Cert.KernelIdeal.Acc
open Cert.LossAlgebra Cert.SumShapes

variable (m : (ℓ : Loc nD τ sig) → Buf (Elt Ideal) ℓ) (ρ : Dev nD → PrngReg)

/-! ## The blocks are rows of the argument arrays -/

theorem idx_in : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0)

/-- Entry `(r', col)` of point `b`'s block of the probabilities is entry `(1024 b + r', col)` of the array. -/
theorem iblk0_apply (c : Dev nD) (b : Fin 32) (h : b.val < cfg0.N) (r' : Fin 1024) (col : Fin 1000) :
    (iblk m c 0 ⟨b.val, h⟩ : Vec Ideal S1024x1000 .f32) (ix2 r' col)
      = m ((c : Thread nD τ).loc main_arg0) (ix2 (blockRow b r') col) := by
  obtain ⟨i0', i1, -, -⟩ := idx_in ⟨b.val, h⟩
  have i0 : win0_0.index ⟨b.val, h⟩ (0 : Fin 2) = b.val := i0'
  unfold iblk
  rw [View.read_apply]
  show V m c main_arg0 _ = m (c.tc.loc main_arg0) _
  rw [V_main_arg0]
  congr 1
  funext a; apply Fin.ext
  match a with
  | ⟨0, _⟩ => show win0_0.index ⟨b.val, h⟩ (0 : Fin 2) * 1024 + 1 * r'.val = 1024 * b.val + r'.val; rw [i0]; omega
  | ⟨1, _⟩ => show win0_0.index ⟨b.val, h⟩ (1 : Fin 2) * 1000 + 1 * col.val = col.val; rw [i1]; omega

/-- The same of the labels. -/
theorem iblk1_apply (c : Dev nD) (b : Fin 32) (h : b.val < cfg0.N) (r' : Fin 1024) (col : Fin 1000) :
    (iblk m c 1 ⟨b.val, h⟩ : Vec Ideal S1024x1000 .i32) (ix2 r' col)
      = m ((c : Thread nD τ).loc main_arg1) (ix2 (blockRow b r') col) := by
  obtain ⟨-, -, i0', i1⟩ := idx_in ⟨b.val, h⟩
  have i0 : win0_1.index ⟨b.val, h⟩ (0 : Fin 2) = b.val := i0'
  unfold iblk
  rw [View.read_apply]
  show V m c main_arg1 _ = m (c.tc.loc main_arg1) _
  rw [V_main_arg1]
  congr 1
  funext a; apply Fin.ext
  match a with
  | ⟨0, _⟩ => show win0_1.index ⟨b.val, h⟩ (0 : Fin 2) * 1024 + 1 * r'.val = 1024 * b.val + r'.val; rw [i0]; omega
  | ⟨1, _⟩ => show win0_1.index ⟨b.val, h⟩ (1 : Fin 2) * 1000 + 1 * col.val = col.val; rw [i1]; omega

/-- The probabilities and the labels, by row and column. -/
abbrev probs (c : Dev nD) : Fin 32768 → Fin 1000 → EReal := fun r col => m ((c : Thread nD τ).loc main_arg0) (ix2 r col)
abbrev labels (c : Dev nD) : Fin 32768 → Fin 1000 → BitVec 32 := fun r col => m ((c : Thread nD τ).loc main_arg1) (ix2 r col)

/-- Point `b`'s three block sums, over rows `1024 b … 1024 b + 1023` of the argument arrays. -/
theorem addend_eq (c : Dev nD) (b : Fin 32) : addend m c b.val =
    (∑ r' : Fin 1024, ∑ col : Fin 1000, lab (labels m c (blockRow b r') col),
     ∑ r' : Fin 1024, ∑ col : Fin 1000, term1 (probs m c (blockRow b r') col) (lab (labels m c (blockRow b r') col)),
     ∑ r' : Fin 1024, ∑ col : Fin 1000, term0K (probs m c (blockRow b r') col) (lab (labels m c (blockRow b r') col))) := by
  have h : b.val < cfg0.N := by rw [show cfg0.N = 32 from N_0]; exact b.isLt
  unfold addend blockS block1 block0
  rw [dif_pos h]
  simp only [iblk0_apply m c b h, iblk1_apply m c b h]

/-- The two cores' added totals are the totals over the whole arrays. -/
theorem kTot_eq (c : Dev nD) :
    kTot m c = (totS (labels m c), tot1 (probs m c) (labels m c), tot0K (probs m c) (labels m c)) := by
  unfold kTot tot
  rw [show 16 * 0 = 0 from rfl, show 16 * 1 = 16 from rfl]
  simp only [zero_add]
  rw [← Finset.sum_range_add (fun s => addend m c s) 16 16, Finset.sum_range (fun s => addend m c s)]
  show ∑ b : Fin 32, addend m c b.val = _
  simp only [addend_eq]
  refine Prod.ext ?_ (Prod.ext ?_ ?_)
  · rw [Prod.fst_sum]
    dsimp only
    exact (sum_blocks fun r => ∑ col : Fin 1000, lab (labels m c r col)).trans (sum_pairs _)
  · rw [Prod.snd_sum, Prod.fst_sum]
    dsimp only
    exact (sum_blocks fun r => ∑ col : Fin 1000, term1 (probs m c r col) (lab (labels m c r col))).trans (sum_pairs _)
  · rw [Prod.snd_sum, Prod.snd_sum]
    dsimp only
    exact (sum_blocks fun r => ∑ col : Fin 1000, term0K (probs m c r col) (lab (labels m c r col))).trans (sum_pairs _)

/-! ## The kernel's run, read -/

theorem result_mem : main_v24 ∈ Pipeline.restRefs sig (cfgs 0).spec :=
  Pipeline.mem_restRefs_of main_v24 rfl (by decide)

/-- Every weakly fair execution of the kernel's program terminates with its result at the loss closed over the
    one-logarithm shares, and its arguments unchanged. -/
theorem run : θ_run defs (onTc (τ := τ) (main (F := Ideal))) ⟨m, fun _ => 0, ρ⟩ fun r => ∀ c : Dev nD,
      r.2.mem ((c : Thread nD τ).loc main_v24)
        = (fun _ => closing (totS (labels m c)) (tot1 (probs m c) (labels m c)) (tot0K (probs m c) (labels m c)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨by
      rw [(h c).2 main_v24 result_mem, tail_eq, kTot_eq],
      ((h c).1 0).trans ((dats m 0 c).arrAt_in 0 rfl _), ((h c).1 1).trans ((dats m 0 c).arrAt_in 1 rfl _)⟩)
    (run_main m ρ)

end Cert.KernelIdeal.Tail

end
-- ==== Proof.lean ====
/-
  The weighted masked log-loss kernel against its reference: the five claims.

  Both programs compute, from probabilities `x` and labels `t` over `[32768, 1000]`,
  `(-(n / (s + 1)) · A - (n / (n - s)) · B) / n` with `n = 32768000`, `s = ∑ t`, `A = ∑ [t = 1] log x` and `B` the sum of the
  logarithms of `1 - x` under the label `0`. The reference masks `log1p (-x)` by `t = 0`; the kernel takes one logarithm
  per entry, of `x` or of `1 - x` by the label, and forms its share of `B` as that logarithm minus its share of `A` —
  block by block over a grid of 32 points, two cores' partial sums added on the host. Sums on the extended reals do
  not depend on the order or grouping, so both programs' `s` and `A` are the same totals, and so is `B` wherever every
  logarithm under the label `1` is a real number. Where one of them is `-∞`, `A` is `-∞` in both programs and the result is
  `+∞` in both (Proof/LossAlgebra.lean). The labels are taken to be binary and the probabilities finite: the first is
  what makes the kernel's share of `B` under a label that is neither `0` nor `1` agree with the reference's `0`.

  The frames of the two kernel programs are the generated ones; the reference's frame is its run with the result
  dropped; nothing was rewritten in the idealization, so `preserves` is trivial.
-/
import proofs.«174111_j72258529788243_2_alg».proof.Defs
import proofs.«174111_j72258529788243_2_alg».proof.Proof.Gen.Kernel
import proofs.«174111_j72258529788243_2_alg».proof.Proof.Gen.Kernel.Frame
import proofs.«174111_j72258529788243_2_alg».proof.Proof.Gen.KernelIdeal
import proofs.«174111_j72258529788243_2_alg».proof.Proof.Gen.KernelIdeal.Frame
import proofs.«174111_j72258529788243_2_alg».proof.Proof.Gen.ReferenceIdeal
import proofs.«174111_j72258529788243_2_alg».proof.Proof.Gen.Pre_finite_inputs
import proofs.«174111_j72258529788243_2_alg».proof.Proof.LossAlgebra
import proofs.«174111_j72258529788243_2_alg».proof.Proof.PreDecode
import proofs.«174111_j72258529788243_2_alg».proof.Proof.RefRun
import proofs.«174111_j72258529788243_2_alg».proof.Proof.RefValue
import proofs.«174111_j72258529788243_2_alg».proof.Proof.KernelTail
import proofs.«174111_j72258529788243_2_alg».proof.Proof.KernelTotals
import Idealize.ShloMosaic.Adequacy
import Idealize.ShloMosaic.Init

noncomputable section

namespace Cert.Proof

open Idealize.ShloMosaic Idealize.ShloMosaic.ValueIdx Idealize.SL.Sem
open Cert.LossAlgebra Cert.KernelIdeal.Tail

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- From memories that agree on finite probabilities and binary labels both programs end at one extended real: the
    kernel's at the loss closed over the one-logarithm shares, the reference's at the loss closed over the masked shares,
    and the two closings agree. -/
theorem algebraic : Cert.algebraic_KernelIdeal_ReferenceIdeal := by
  intro m ρ m' ρ' hpre hagree
  refine ⟨fun c => fun _ => closing (totS (labels m c)) (tot1 (probs m c) (labels m c)) (tot0K (probs m c) (labels m c)),
    Cert.KernelIdeal.Tail.run m ρ, ?_⟩
  refine (θ_run Cert.ReferenceIdeal.defs _ _).mono (fun _ h c => ⟨(h c).1.trans ?_, (h c).2⟩)
    (Cert.ReferenceIdeal.ValueP.run (F := Ideal) m' ρ')
  rw [(hagree c).1, (hagree c).2]
  show Cert.ReferenceIdeal.RefValue.refResult
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) = _
  funext j
  rw [Cert.ReferenceIdeal.RefValue.refResult_apply]
  exact (loss_eq (probs m c) (labels m c)
    (fun r col => (Cert.PreDecode.decode _ _ (hpre c) (ix2 r col)).1)
    (fun r col => (Cert.PreDecode.decode _ _ (hpre c) (ix2 r col)).2)).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
